-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S128x64 .f32) (main_arg10 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 81
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S1x64, .f32⟩
  | .hbm, ⟨80, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S_, .f32⟩
  | .hbm, ⟨97, _⟩ => ⟨S1600000, .f32⟩
  | .hbm, ⟨98, _⟩ => ⟨S_, .f32⟩
  | .hbm, ⟨99, _⟩ => ⟨S100000, .f32⟩
  | .hbm, ⟨100, _⟩ => ⟨S1600000x1, .i32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000x128, .f32⟩
  | .hbm, ⟨107, _⟩ => ⟨S100000x128, .f32⟩
  | .hbm, ⟨108, _⟩ => ⟨S100000x64, .f32⟩
  | .hbm, ⟨109, _⟩ => ⟨S100000x64, .f32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KerRun.lean ====
/-
  The run of the three-region program with its result named.

  The program is six segments: a stretch of host operations, a grid of 20 points running the first dense layer, a
  second stretch, the second layer's grid, a third stretch, the last layer's grid.  Every weakly fair execution runs
  them in order and terminates; the buffer contents at each boundary are a fold from the launch memory (`W0 … W6`),
  and the final memory agrees with the last fold `W6` on every buffer.  Read at the result buffer this names the
  result; read at an argument it gives back the launch contents.
-/
import proofs.«178328_j53463752901314_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the
    arguments as launched. -/
theorem run_value : θ_run defs (onTc (τ := τ) (main (F := F))) ⟨m, fun _ => 0, ρ⟩ (fun r => ∀ c : Dev nD,
      r.2.mem ((c.tc : Thread nD τ).loc main_v56) = W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
    Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v56 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.RunValue

end
-- ==== Proof.LibRecipClip.lean ====
/-
  Dividing by a quantity clipped below at one, on the extended reals.

  On the extended reals division by `y` is multiplication by the inverse of `y` whenever `y` is not zero.  A quantity
  clipped below at one, `max d 1`, is at least one, so it is never zero — whatever `d` is, the infinities included.
  Hence multiplying by the reciprocal `1 / max d 1` and dividing by `max d 1` are the same operation on EVERY extended
  real `x`: no finiteness is needed.  This is the law that joins a mean written as "sum times reciprocal degree" to
  the same mean written as "sum divided by degree" when the degree is clipped at one.
  Also here: the binary32 word of `1.0` denotes the real one.
-/
import Idealize.ShloMosaic.PureOps.Ideal

noncomputable section

namespace Cert.Lib

open Idealize.ShloMosaic

/-- The binary32 word of `1.0` denotes the real one. -/
theorem ofBits_one : Ideal.ofBits .f32 0x3F800000#32 = 1 := by
  simp [Ideal.ofBits, Ideal.ieee, -EReal.coe_mul]; norm_num

/-- A quantity clipped below at one is not zero. -/
theorem max_one_ne_zero (d : EReal) : max d 1 ≠ 0 :=
  ne_of_gt (lt_of_lt_of_le zero_lt_one (le_max_right d 1))

/-- Multiplying by the reciprocal of a clipped quantity is dividing by it, on every extended real. -/
theorem mul_recip_clipped (x d : EReal) : x * Ideal.div 1 (max d 1) = Ideal.div x (max d 1) := by
  unfold Ideal.div
  rw [if_neg (max_one_ne_zero d), if_neg (max_one_ne_zero d), one_mul]

end Cert.Lib

end
-- ==== Proof.SageSpec.lean ====
/-
  One layer of a mean-aggregating graph convolution, entry by entry, on the extended reals.

  A layer takes the aggregated neighbour features `a` (one row per node), the nodes' own features `h`, two weight
  matrices and a bias row, and returns at node `p`, output channel `q`

      (∑ₖ a(p,k)·Wl(k,q) + ∑ₖ h(p,k)·Wr(k,q)) + b(q),

  clipped below at zero in the two inner layers.  The one scalar law the certificate needs — dividing by a clipped
  degree `max d 1` and multiplying by its reciprocal agree on every extended real — is re-exported here by name.
-/
import proofs.«178328_j53463752901314_1_alg».proof.Proof.Gen.KernelIdeal
import proofs.«178328_j53463752901314_1_alg».proof.Proof.LibRecipClip
import Idealize.ShloMosaic.PureOps.Ideal
import Idealize.ShloMosaic.Lib.ValueIdx

noncomputable section

namespace Cert.Sage

open Idealize.ShloMosaic Idealize.ShloMosaic.ValueIdx Cert.KernelIdeal

/-- Entry `(p, q)` of a 128-to-128 layer before clipping. -/
def denseAt (a h : FVec Ideal S100000x128 .f32) (wl wr : FVec Ideal S128x128 .f32) (brow : FVec Ideal S1x128 .f32)
    (p : Fin 100000) (q : Fin 128) : EReal :=
  ((∑ k : Fin 128, a (ix2 p k) * wl (ix2 k q)) + ∑ k : Fin 128, h (ix2 p k) * wr (ix2 k q)) + brow (ix2 0 q)

/-- A 128-to-128 layer with the rectifier, as one array. -/
def denseRelu (a h : FVec Ideal S100000x128 .f32) (wl wr : FVec Ideal S128x128 .f32) (brow : FVec Ideal S1x128 .f32) :
    FVec Ideal S100000x128 .f32 :=
  fun i => max (denseAt a h wl wr brow ⟨(i 0).val, (i 0).isLt⟩ ⟨(i 1).val, (i 1).isLt⟩) 0

theorem denseRelu_ix2 (a h : FVec Ideal S100000x128 .f32) (wl wr : FVec Ideal S128x128 .f32) (brow : FVec Ideal S1x128 .f32)
    (p : Fin 100000) (q : Fin 128) : denseRelu a h wl wr brow (ix2 p q) = max (denseAt a h wl wr brow p q) 0 := rfl

/-- Entry `(p, q)` of the last, 128-to-64 layer (no rectifier). -/
def denseOutAt (a h : FVec Ideal S100000x128 .f32) (wl wr : FVec Ideal S128x64 .f32) (brow : FVec Ideal S1x64 .f32)
    (p : Fin 100000) (q : Fin 64) : EReal :=
  ((∑ k : Fin 128, a (ix2 p k) * wl (ix2 k q)) + ∑ k : Fin 128, h (ix2 p k) * wr (ix2 k q)) + brow (ix2 0 q)

/-- The last layer as one array. -/
def denseOut (a h : FVec Ideal S100000x128 .f32) (wl wr : FVec Ideal S128x64 .f32) (brow : FVec Ideal S1x64 .f32) :
    FVec Ideal S100000x64 .f32 :=
  fun i => denseOutAt a h wl wr brow ⟨(i 0).val, (i 0).isLt⟩ ⟨(i 1).val, (i 1).isLt⟩

theorem denseOut_ix2 (a h : FVec Ideal S100000x128 .f32) (wl wr : FVec Ideal S128x64 .f32) (brow : FVec Ideal S1x64 .f32)
    (p : Fin 100000) (q : Fin 64) : denseOut a h wl wr brow (ix2 p q) = denseOutAt a h wl wr brow p q := rfl

export Cert.Lib (ofBits_one max_one_ne_zero mul_recip_clipped)

end Cert.Sage

end
-- ==== Proof.SageOps.lean ====
/-
  The host-side pieces of the graph convolution as whole-array functions, shared by both programs.

  From the edge list `ei` (row 0 the sources, row 1 the targets): the source indices with negative entries wrapped
  by the node count, the target indices, the scatter-added sum of gathered source rows into their targets, and the
  in-degree clipped below at one.  The mean over incoming edges is written in two ways — the sum times the reciprocal
  of the clipped degree, and the sum divided by the clipped degree — and the two are one array (`mean_eq`): entry by
  entry it is the scalar law `x · (1 / max d 1) = x / max d 1`.
  Then a whole layer: the dense map of `SageSpec` applied to the mean, the nodes' own rows, the weights, and the bias
  laid out as a one-row matrix.
-/
import proofs.«178328_j53463752901314_1_alg».proof.Proof.SageSpec
import Idealize.ShloMosaic.Lib.Pipeline.Value

noncomputable section

namespace Cert.Sage

open Idealize.ShloMosaic Idealize.ShloMosaic.ValueIdx Cert.KernelIdeal
open Cert.KernelIdeal.Facts₀ Cert.KernelIdeal.Facts

/-- The edge list's row of targets, as a column of indices. -/
def dstIdx (ei : IVec S2x1600000 32) : IVec S1600000x1 32 :=
  broadcastInDim S1600000x1 ![0] bcast_S1600000_S1600000x1_0
    (shapeCast _ (extractStridedSlice S1x1600000 ![1, 0] ei slices_S2x1600000_S1x1600000_1_0) shapeCasts_S1x1600000_S1600000)

/-- The edge list's row of sources. -/
def srcRow (ei : IVec S2x1600000 32) : IVec S1600000 32 :=
  shapeCast _ (extractStridedSlice S1x1600000 ![0, 0] ei slices_S2x1600000_S1x1600000_0_0) shapeCasts_S1x1600000_S1600000

/-- The sources as a column of indices, a negative entry wrapped round by the number of nodes. -/
def srcIdx (ei : IVec S2x1600000 32) : IVec S1600000x1 32 :=
  broadcastInDim S1600000x1 ![0] bcast_S1600000_S1600000x1_0
    (select (cmpi .slt (srcRow ei) (broadcastInDim S1600000 ![] bcast_S_S1600000 (constantI S_ 32 0#32)))
      (addi (srcRow ei) (broadcastInDim S1600000 ![] bcast_S_S1600000 (constantI S_ 32 100000#32))) (srcRow ei))

/-- For every node, the sum over its incoming edges of the source's row of `h`. -/
def aggSum (h : FVec Ideal S100000x128 .f32) (ei : IVec S2x1600000 32) : FVec Ideal S100000x128 .f32 :=
  Host.scatterAdd scatter_S100000x128_S1600000x1_S1600000x128_1_0_0_1
    (broadcastInDim S100000x128 ![] bcast_S_S100000x128 (constant S_ .f32 0x00000000#32)) (dstIdx ei)
    (Host.gather gather_S100000x128_S1600000x1_S1600000x128_1_0_n_n_0_1_1128 h (srcIdx ei))

/-- The vector of ones over the nodes. -/
def onesN : FVec Ideal S100000 .f32 := broadcastInDim S100000 ![] bcast_S_S100000 (constant S_ .f32 0x3F800000#32)

/-- Every node's number of incoming edges, clipped below at one. -/
def degClip (ei : IVec S2x1600000 32) : FVec Ideal S100000 .f32 :=
  maximumf (Host.scatterAdd scatter_S100000_S1600000x1_S1600000_n_0_0_1
      (broadcastInDim S100000 ![] bcast_S_S100000 (constant S_ .f32 0x00000000#32)) (dstIdx ei)
      (broadcastInDim S1600000 ![] bcast_S_S1600000 (constant S_ .f32 0x3F800000#32))) onesN

/-- A per-node vector laid along every feature column. -/
def alongRows (v : FVec Ideal S100000 .f32) : FVec Ideal S100000x128 .f32 :=
  broadcastInDim S100000x128 ![0, 1] bcast_S100000x1_S100000x128_0_1 (broadcastInDim S100000x1 ![0] bcast_S100000_S100000x1_0 v)

/-- The mean over incoming edges as the sum times the reciprocal of the clipped degree. -/
def meanMul (h : FVec Ideal S100000x128 .f32) (ei : IVec S2x1600000 32) : FVec Ideal S100000x128 .f32 :=
  mulf (aggSum h ei) (alongRows (Host.divf onesN (degClip ei)))

/-- The mean over incoming edges as the sum divided by the clipped degree. -/
def meanDiv (h : FVec Ideal S100000x128 .f32) (ei : IVec S2x1600000 32) : FVec Ideal S100000x128 .f32 :=
  Host.divf (aggSum h ei) (alongRows (degClip ei))

/-- A per-node vector laid along the feature columns, read at node `p`, column `q`, is the vector at `p`. -/
theorem alongRows_apply (v : FVec Ideal S100000 .f32) (p : Fin 100000) (q : Fin 128) :
    alongRows v (ix2 p q) = v (ix1 p) := by
  unfold alongRows
  generalize hy : broadcastInDim S100000x1 ![0] bcast_S100000_S100000x1_0 v = y
  have e1 : broadcastInDim S100000x128 ![0, 1] bcast_S100000x1_S100000x128_0_1 y (ix2 p q) = y (ix2 p 0) :=
    broadcastInDim_apply _ bcast_S100000x1_S100000x128_0_1 y (ix2 p q) (ix2 p 0) (fun a => match a with
      | ⟨0, _⟩ => by show p.val = if (100000 : Nat) = 1 then 0 else p.val; rw [if_neg (by decide)]
      | ⟨1, _⟩ => by show 0 = if (1 : Nat) = 1 then 0 else q.val; rw [if_pos rfl])
  rw [e1, ← hy]
  exact broadcastInDim_apply _ bcast_S100000_S100000x1_0 v (ix2 p 0) (ix1 p) (fun a => match a with
      | ⟨0, _⟩ => by show p.val = if (100000 : Nat) = 1 then 0 else p.val; rw [if_neg (by decide)])

/-- At one entry: the sum times the reciprocal of the clipped degree is the sum divided by the clipped degree. -/
theorem mean_pt (s : FVec Ideal S100000x128 .f32) (d : FVec Ideal S100000 .f32) (p : Fin 100000) (q : Fin 128) :
    mulf s (alongRows (Host.divf (F := Ideal) onesN (maximumf d onesN))) (ix2 p q)
      = Host.divf (F := Ideal) s (alongRows (maximumf d onesN)) (ix2 p q) := by
  have e1 : alongRows (Host.divf (F := Ideal) onesN (maximumf d onesN)) (ix2 p q)
      = Host.divf (F := Ideal) onesN (maximumf d onesN) (ix1 p) := alongRows_apply _ p q
  have e2 : alongRows (maximumf d onesN) (ix2 p q) = maximumf d onesN (ix1 p) := alongRows_apply _ p q
  have l : mulf s (alongRows (Host.divf (F := Ideal) onesN (maximumf d onesN))) (ix2 p q)
      = s (ix2 p q) * alongRows (Host.divf (F := Ideal) onesN (maximumf d onesN)) (ix2 p q) := rfl
  have r : Host.divf (F := Ideal) s (alongRows (maximumf d onesN)) (ix2 p q)
      = Ideal.div (s (ix2 p q)) (alongRows (maximumf d onesN) (ix2 p q)) := rfl
  have a : Host.divf (F := Ideal) onesN (maximumf d onesN) (ix1 p) = Ideal.div 1 (max (d (ix1 p)) 1) := by
    show Ideal.div (Ideal.ofBits .f32 0x3F800000#32) (max (d (ix1 p)) (Ideal.ofBits .f32 0x3F800000#32)) = _
    rw [ofBits_one]
  have b : maximumf d onesN (ix1 p) = max (d (ix1 p)) 1 := by
    show max (d (ix1 p)) (Ideal.ofBits .f32 0x3F800000#32) = _
    rw [ofBits_one]
  rw [l, r, e1, e2, a, b]
  exact mul_recip_clipped _ _

/-- The two spellings of the mean are one array. -/
theorem mean_eq (h : FVec Ideal S100000x128 .f32) (ei : IVec S2x1600000 32) : meanMul h ei = meanDiv h ei := by
  funext i
  obtain ⟨p, q, rfl⟩ : ∃ (p : Fin 100000) (q : Fin 128), i = ix2 p q := ⟨i 0, i 1, eq_ix2 i⟩
  exact mean_pt (aggSum h ei) _ p q

/-- A 128-to-128 layer with the rectifier: mean of the neighbours, own rows, weights, bias as a one-row matrix. -/
def layerRelu (h : FVec Ideal S100000x128 .f32) (ei : IVec S2x1600000 32) (wl wr : FVec Ideal S128x128 .f32)
    (b : FVec Ideal S128 .f32) : FVec Ideal S100000x128 .f32 :=
  denseRelu (meanMul h ei) h wl wr (shapeCast _ b shapeCasts_S128_S1x128)

/-- The last layer, 128-to-64, no rectifier. -/
def layerOut (h : FVec Ideal S100000x128 .f32) (ei : IVec S2x1600000 32) (wl wr : FVec Ideal S128x64 .f32)
    (b : FVec Ideal S64 .f32) : FVec Ideal S100000x64 .f32 :=
  denseOut (meanMul h ei) h wl wr (shapeCast _ b shapeCasts_S64_S1x64)

/-- The three stacked layers. -/
def net (x : FVec Ideal S100000x128 .f32) (ei : IVec S2x1600000 32) (wl0 wr0 : FVec Ideal S128x128 .f32) (b0 : FVec Ideal S128 .f32)
    (wl1 wr1 : FVec Ideal S128x128 .f32) (b1 : FVec Ideal S128 .f32) (wl2 wr2 : FVec Ideal S128x64 .f32) (b2 : FVec Ideal S64 .f32) :
    FVec Ideal S100000x64 .f32 :=
  layerOut (layerRelu (layerRelu x ei wl0 wr0 b0) ei wl1 wr1 b1) ei wl2 wr2 b2

end Cert.Sage

end
-- ==== Proof.KerPayload.lean ====
/-
  What one grid point of each dense-layer kernel stores, read at an entry of its block.

  The body takes a block of 5000 rows of the aggregated features and of the nodes' own features, the two weight
  matrices and the bias row, narrows the four matrix operands (the identity on extended reals), multiplies each pair
  into a zero accumulator, adds the two products, adds the bias row laid along the rows and, in the two inner layers,
  clips below at zero.  Read at row `r`, channel `q` that is
      (∑ₖ x0(r,k)·x2(k,q) + ∑ₖ x1(r,k)·x3(k,q)) + x4(0,q).

  Each product is read through the contraction's one axis: the sum over the contraction index set is re-indexed by
  the bijection with `Fin 128`, and at position `k` the left operand is read at `(r, k)`, the right at `(k, q)`.
-/
import proofs.«178328_j53463752901314_1_alg».proof.Proof.SageSpec
import proofs.«178328_j53463752901314_1_alg».proof.Proof.Gen.KernelIdeal.Skeleton
import Idealize.ShloMosaic.Lib.Pipeline.Value
import Idealize.ShloMosaic.Lib.ValueLayout
import Idealize.ShloMosaic.PureOps.Ideal.Laws

noncomputable section

namespace Cert.Sage

open Idealize.ShloMosaic Idealize.ShloMosaic.ValueIdx Cert.KernelIdeal

/-- A product into the zero accumulator, read at `(r, q)`: the left operand's row `r` against the right operand's
    column `q`, summed over the one contracted axis. -/
theorem matmul128_at (a : FVec Ideal S5000x128 .bf16) (w : FVec Ideal S128x128 .bf16) (r : Fin 5000) (q : Fin 128) :
    matmul (F := Ideal) dot_S5000x128_S128x128_S5000x128_1_0_0_1_n_n none a w (constant S5000x128 .f32 0x00000000#32) (ix2 r q)
      = ∑ k : Fin 128, a (ix2 r k) * w (ix2 k q) := by
  show FloatOps.matmul dot_S5000x128_S128x128_S5000x128_1_0_0_1_n_n none a w (constant S5000x128 .f32 0x00000000#32) (ix2 r q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun c => Fin.ext (by
    match c with
    | ⟨0, _⟩ =>
      show (dot_S5000x128_S128x128_S5000x128_1_0_0_1_n_n.lhsIdx (ix2 r q) _ 0).val = r.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact ((dot_S5000x128_S128x128_S5000x128_1_0_0_1_n_n.lhsIdx_val_of_single rfl (ix2 r q) _).trans hk))
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun c => Fin.ext (by
    match c with
    | ⟨0, _⟩ => exact ((dot_S5000x128_S128x128_S5000x128_1_0_0_1_n_n.rhsIdx_val_of_single rfl (ix2 r q) _).trans hk)
    | ⟨1, _⟩ =>
      show (dot_S5000x128_S128x128_S5000x128_1_0_0_1_n_n.rhsIdx (ix2 r q) _ 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-- A product into the zero accumulator, read at `(r, q)`: the left operand's row `r` against the right operand's
    column `q`, summed over the one contracted axis. -/
theorem matmul64_at (a : FVec Ideal S5000x128 .bf16) (w : FVec Ideal S128x64 .bf16) (r : Fin 5000) (q : Fin 64) :
    matmul (F := Ideal) dot_S5000x128_S128x64_S5000x64_1_0_0_1_n_n none a w (constant S5000x64 .f32 0x00000000#32) (ix2 r q)
      = ∑ k : Fin 128, a (ix2 r k) * w (ix2 k q) := by
  show FloatOps.matmul dot_S5000x128_S128x64_S5000x64_1_0_0_1_n_n none a w (constant S5000x64 .f32 0x00000000#32) (ix2 r q) = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 r q) ((ValueIdx.contrEquiv1 dot_S5000x128_S128x64_S5000x64_1_0_0_1_n_n 128 rfl rfl).symm k) = ix2 r k := funext fun c => Fin.ext (by
    match c with
    | ⟨0, _⟩ =>
      show (dot_S5000x128_S128x64_S5000x64_1_0_0_1_n_n.lhsIdx (ix2 r q) _ 0).val = r.val
      unfold DotDims.lhsIdx
      rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
      rfl
    | ⟨1, _⟩ => exact ((dot_S5000x128_S128x64_S5000x64_1_0_0_1_n_n.lhsIdx_val_of_single rfl (ix2 r q) _).trans hk))
  have er : dot_S5000x128_S128x64_S5000x64_1_0_0_1_n_n.rhsIdx (ix2 r q) ((ValueIdx.contrEquiv1 dot_S5000x128_S128x64_S5000x64_1_0_0_1_n_n 128 rfl rfl).symm k) = ix2 k q := funext fun c => Fin.ext (by
    match c with
    | ⟨0, _⟩ => exact ((dot_S5000x128_S128x64_S5000x64_1_0_0_1_n_n.rhsIdx_val_of_single rfl (ix2 r q) _).trans hk)
    | ⟨1, _⟩ =>
      show (dot_S5000x128_S128x64_S5000x64_1_0_0_1_n_n.rhsIdx (ix2 r q) _ 1).val = q.val
      unfold DotDims.rhsIdx
      rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
      rfl)
  rw [el, er]

/-- The bias row, recast to its own shape and laid along the rows, read at `(r, q)`: the row's entry `q`. -/
theorem biasRow128_at (b : Vec Ideal S1x128 .f32) (h₁ : S1x128.ShapeCasts S1x128) (h₂ : S1x128.Broadcasts S5000x128)
    (r : Fin 5000) (q : Fin 128) :
    broadcastTo S5000x128 (shapeCast S1x128 b h₁) h₂ (ix2 r q) = b (ix2 0 q) := by
  rw [shapeCast_self]
  exact broadcastTo_1b_ab_apply b h₂ r q

/-- The bias row, recast to its own shape and laid along the rows, read at `(r, q)`: the row's entry `q`. -/
theorem biasRow64_at (b : Vec Ideal S1x64 .f32) (h₁ : S1x64.ShapeCasts S1x64) (h₂ : S1x64.Broadcasts S5000x64)
    (r : Fin 5000) (q : Fin 64) :
    broadcastTo S5000x64 (shapeCast S1x64 b h₁) h₂ (ix2 r q) = b (ix2 0 q) := by
  rw [shapeCast_self]
  exact broadcastTo_1b_ab_apply b h₂ r q

/-- A narrowed operand recast to its own shape reads as the operand. -/
theorem narrowCast_at {s : Shape} (x : Vec Ideal s .f32) (h : s.ShapeCasts s) (hb : FTy.bits .bf16 < FTy.bits .f32) (i : s.Idx) :
    (truncf .bf16 (shapeCast s x h) hb : FVec Ideal s .bf16) i = x i := by
  rw [shapeCast_self]; rfl

/-- The first layer's stored block at `(r, q)`. -/
theorem pay0_at (x0 x1 : Vec Ideal S5000x128 .f32) (x2 x3 : Vec Ideal S128x128 .f32) (x4 : Vec Ideal S1x128 .f32)
    (r : Fin 5000) (q : Fin 128) :
    Cert.KernelIdeal.Gen.k0_pay1 (F := Ideal) x0 x1 x2 x3 x4 (ix2 r q)
      = max (((∑ k : Fin 128, x0 (ix2 r k) * x2 (ix2 k q)) + ∑ k : Fin 128, x1 (ix2 r k) * x3 (ix2 k q)) + x4 (ix2 0 q)) 0 := by
  unfold Cert.KernelIdeal.Gen.k0_pay1
  refine (maximumf_apply _ _ _).trans ?_
  refine congrArg₂ max ?_ Ideal.ofBits_zero_f32
  refine (addf_apply _ _ _).trans ?_
  refine congrArg₂ (· + ·) ?_ (biasRow128_at x4 _ _ r q)
  refine (addf_apply _ _ _).trans ?_
  refine congrArg₂ (· + ·) ?_ ?_
  · refine (matmul128_at _ _ r q).trans ?_
    exact Finset.sum_congr rfl fun k _ => congrArg₂ (· * ·) (narrowCast_at x0 _ _ _) rfl
  · exact matmul128_at _ _ r q

/-- The second layer's stored block at `(r, q)`. -/
theorem pay1_at (x0 x1 : Vec Ideal S5000x128 .f32) (x2 x3 : Vec Ideal S128x128 .f32) (x4 : Vec Ideal S1x128 .f32)
    (r : Fin 5000) (q : Fin 128) :
    Cert.KernelIdeal.Gen.k1_pay1 (F := Ideal) x0 x1 x2 x3 x4 (ix2 r q)
      = max (((∑ k : Fin 128, x0 (ix2 r k) * x2 (ix2 k q)) + ∑ k : Fin 128, x1 (ix2 r k) * x3 (ix2 k q)) + x4 (ix2 0 q)) 0 := by
  unfold Cert.KernelIdeal.Gen.k1_pay1
  refine (maximumf_apply _ _ _).trans ?_
  refine congrArg₂ max ?_ Ideal.ofBits_zero_f32
  refine (addf_apply _ _ _).trans ?_
  refine congrArg₂ (· + ·) ?_ (biasRow128_at x4 _ _ r q)
  refine (addf_apply _ _ _).trans ?_
  refine congrArg₂ (· + ·) ?_ ?_
  · refine (matmul128_at _ _ r q).trans ?_
    exact Finset.sum_congr rfl fun k _ => congrArg₂ (· * ·) (narrowCast_at x0 _ _ _) rfl
  · refine (matmul128_at _ _ r q).trans ?_
    exact Finset.sum_congr rfl fun k _ => congrArg₂ (· * ·) (narrowCast_at x1 _ _ _) rfl

/-- The last layer's stored block at `(r, q)`: no clipping. -/
theorem pay2_at (x0 x1 : Vec Ideal S5000x128 .f32) (x2 x3 : Vec Ideal S128x64 .f32) (x4 : Vec Ideal S1x64 .f32)
    (r : Fin 5000) (q : Fin 64) :
    Cert.KernelIdeal.Gen.k2_pay1 (F := Ideal) x0 x1 x2 x3 x4 (ix2 r q)
      = ((∑ k : Fin 128, x0 (ix2 r k) * x2 (ix2 k q)) + ∑ k : Fin 128, x1 (ix2 r k) * x3 (ix2 k q)) + x4 (ix2 0 q) := by
  unfold Cert.KernelIdeal.Gen.k2_pay1
  refine (addf_apply _ _ _).trans ?_
  refine congrArg₂ (· + ·) ?_ (biasRow64_at x4 _ _ r q)
  refine (addf_apply _ _ _).trans ?_
  refine congrArg₂ (· + ·) ?_ ?_
  · refine (matmul64_at _ _ r q).trans ?_
    exact Finset.sum_congr rfl fun k _ => congrArg₂ (· * ·) (narrowCast_at x0 _ _ _) rfl
  · refine (matmul64_at _ _ r q).trans ?_
    exact Finset.sum_congr rfl fun k _ => congrArg₂ (· * ·) (narrowCast_at x1 _ _ _) rfl

end Cert.Sage

end
-- ==== Proof.KerRegion0.lean ====
/-
  From blocks to the array: the first dense layer.

  The region runs over a grid of 20 points, and point `t` stores one block of 5000 rows of the output.  The index
  maps send point `t` to block of rows `t` of the aggregated features, of the nodes' own features and of the output,
  always at column block zero, and to block (0, 0) of the two weight matrices and of the bias row, which are
  whole arrays.  So entry `(r, q)` of the block point `t` stores,

      (∑ₖ a(5000·t + r, k)·Wl(k, q) + ∑ₖ h(5000·t + r, k)·Wr(k, q)) + b(0, q), clipped below at zero,

  is entry `(5000·t + r, q)` of the layer's array of the arrays the region finds; and the twenty blocks of rows
  tile the 100000 rows (row `p` lies in block `p / 5000`), so after the last point the output array IS the layer's array.
-/
import proofs.«178328_j53463752901314_1_alg».proof.Proof.KerPayload
import proofs.«178328_j53463752901314_1_alg».proof.Proof.Gen.KernelIdeal.Frame
import Idealize.ShloMosaic.Lib.Pipeline.Value

set_option maxRecDepth 16384

noncomputable section

namespace Cert.Sage

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

namespace Region0

theorem hz0 : (![0, 0] : Fin 2 → Nat) = fun _ => 0 := funext fun a => by fin_cases a <;> rfl

/-- The printed index maps over the grid: the two row windows move with the output's block of rows, every window
    sits at column block zero, and the weights and the bias stay at block (0, 0). -/
theorem idx_facts0 : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every block of rows is some point's. -/
theorem idx_onto0 : ∀ q0 : Fin 20, ∃ t : Fin cfg0.N, win0_5.index t = ![q0.val, 0] :=
  (by decide +kernel : ∀ q0 : Fin 20, ∃ t : Fin grid0.N, win0_5.index t = ![q0.val, 0])

theorem row0_lt (t : Fin cfg0.N) (r : Fin 5000) : win0_5.index t (0 : Fin 2) * 5000 + r.val < 100000 := by
  have h := (idx_facts0 t).2.2.2.2.2.2.2.2.2.2.1
  have hr := r.isLt
  omega

/-- The row of the array that row `r` of point `t`'s block is. -/
abbrev row0 (t : Fin cfg0.N) (r : Fin 5000) : Fin 100000 := ⟨win0_5.index t (0 : Fin 2) * 5000 + r.val, row0_lt t r⟩

/-- Entry `(r, q)` of the output's block at point `t` sits in the array at row `row0 t r`, column `q`. -/
theorem emb0_5 (t : Fin cfg0.N) (r : Fin 5000) (q : Fin 128) :
    ((cfg0.win 5).blk t).view.emb (ix2 r q) = ix2 (row0 t r) q := by
  have e1 := (idx_facts0 t).2.2.2.2.2.2.2.2.2.2.2
  funext a; apply Fin.ext
  match a with
  | ⟨0, _⟩ => show win0_5.index t (0 : Fin 2) * 5000 + 1 * r.val = win0_5.index t (0 : Fin 2) * 5000 + r.val; omega
  | ⟨1, _⟩ => show win0_5.index t (1 : Fin 2) * 128 + 1 * q.val = q.val; rw [e1]; omega

/-- The aggregated features' block at point `t` is the array's rows of that point. -/
theorem blk0_0 (c : Dev nD) (t : Fin cfg0.N) (r : Fin 5000) (k : Fin 128) :
    (iblk0 (F := Ideal) V c 0 t : Vec Ideal S5000x128 .f32) (ix2 r k) = V c main_v24 (ix2 (row0 t r) k) := by
  obtain ⟨e0, e1, -⟩ := idx_facts0 t
  unfold iblk0
  rw [View.read_apply]
  show V c main_v24 _ = V c main_v24 _
  congr 1
  funext a; apply Fin.ext
  match a with
  | ⟨0, _⟩ => show win0_0.index t (0 : Fin 2) * 5000 + 1 * r.val = win0_5.index t (0 : Fin 2) * 5000 + r.val; rw [e0]; omega
  | ⟨1, _⟩ => show win0_0.index t (1 : Fin 2) * 128 + 1 * k.val = k.val; rw [e1]; omega

/-- The nodes' own features' block at point `t` is the array's rows of that point. -/
theorem blk0_1 (c : Dev nD) (t : Fin cfg0.N) (r : Fin 5000) (k : Fin 128) :
    (iblk0 (F := Ideal) V c 1 t : Vec Ideal S5000x128 .f32) (ix2 r k) = V c main_arg0 (ix2 (row0 t r) k) := by
  obtain ⟨-, -, e0, e1, -⟩ := idx_facts0 t
  unfold iblk0
  rw [View.read_apply]
  show V c main_arg0 _ = V c main_arg0 _
  congr 1
  funext a; apply Fin.ext
  match a with
  | ⟨0, _⟩ => show win0_1.index t (0 : Fin 2) * 5000 + 1 * r.val = win0_5.index t (0 : Fin 2) * 5000 + r.val; rw [e0]; omega
  | ⟨1, _⟩ => show win0_1.index t (1 : Fin 2) * 128 + 1 * k.val = k.val; rw [e1]; omega

/-- The first weight matrix's block is the matrix at every point. -/
theorem blk0_2 (c : Dev nD) (t : Fin cfg0.N) (k : Fin 128) (q : Fin 128) :
    (iblk0 (F := Ideal) V c 2 t : Vec Ideal S128x128 .f32) (ix2 k q) = V c main_arg2 (ix2 k q) := by
  obtain ⟨-, -, -, -, e0, e1, -⟩ := idx_facts0 t
  unfold iblk0
  rw [View.read_apply]
  show V c main_arg2 _ = V c main_arg2 _
  congr 1
  funext a; apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The second weight matrix's block is the matrix at every point. -/
theorem blk0_3 (c : Dev nD) (t : Fin cfg0.N) (k : Fin 128) (q : Fin 128) :
    (iblk0 (F := Ideal) V c 3 t : Vec Ideal S128x128 .f32) (ix2 k q) = V c main_arg3 (ix2 k q) := by
  obtain ⟨-, -, -, -, -, -, e0, e1, -⟩ := idx_facts0 t
  unfold iblk0
  rw [View.read_apply]
  show V c main_arg3 _ = V c main_arg3 _
  congr 1
  funext a; apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias row's block is the row at every point. -/
theorem blk0_4 (c : Dev nD) (t : Fin cfg0.N) (z : Fin 1) (q : Fin 128) :
    (iblk0 (F := Ideal) V c 4 t : Vec Ideal S1x128 .f32) (ix2 z q) = V c main_v25 (ix2 z q) := by
  obtain ⟨-, -, -, -, -, -, -, -, e0, e1, -⟩ := idx_facts0 t
  unfold iblk0
  rw [View.read_apply]
  show V c main_v25 _ = V c main_v25 _
  congr 1
  funext a; apply Fin.ext
  match a with
  | ⟨0, _⟩ => show win0_4.index t (0 : Fin 2) * 1 + 1 * z.val = z.val; rw [e0]; omega
  | ⟨1, _⟩ => show win0_4.index t (1 : Fin 2) * 128 + 1 * q.val = q.val; rw [e1]; omega

/-- What point `t` writes back is its block of the layer's array of the arrays the region finds. -/
theorem flushed0_eq (c : Dev nD) (t : Fin cfg0.N) :
    (dat0 (F := Ideal) V c).flushed 5 t = ((cfg0.win 5).blk t).view.read (Elt Ideal)
      (denseRelu (V c main_v24) (V c main_arg0) (V c main_arg2) (V c main_arg3) (V c main_v25)) := by
  show (cfg0.win 5).cut (grid0.coords t) ((dat0 (F := Ideal) V c).after 5 t) = _
  rw [after0_5]
  unfold out0_5
  rw [View.canon_unit_zero hz0]
  simp only [View.ld_unit_zero (S := S5000x128) hz0, View.ld_unit_zero (S := S128x128) hz0, View.ld_unit_zero (S := S1x128) hz0]
  funext j
  obtain ⟨r, q, rfl⟩ : ∃ (r : Fin 5000) (q : Fin 128), j = ix2 r q := ⟨j 0, j 1, @eq_ix2 5000 128 j⟩
  show k0_pay1 (F := Ideal) (iblk0 V c 0 t) (iblk0 V c 1 t) (iblk0 V c 2 t) (iblk0 V c 3 t) (iblk0 V c 4 t) (ix2 r q)
    = denseRelu (V c main_v24) (V c main_arg0) (V c main_arg2) (V c main_arg3) (V c main_v25) (((cfg0.win 5).blk t).view.emb (ix2 r q))
  rw [pay0_at, emb0_5, denseRelu_ix2]
  unfold denseAt
  simp only [blk0_0 V c t, blk0_1 V c t, blk0_2 V c t, blk0_3 V c t, blk0_4 V c t]

/-- An index of the array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every index of the array is in some point's block: row `p` is in the block of rows `p / 5000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

end Region0

/-- After the region the output array is the layer's array of the arrays the region found. -/
theorem final0 (c : Dev nD) :
    (Cert.KernelIdeal.Gen.dat0 (F := Ideal) V c).arrAt 5 cfg0.N
      = Cert.Sage.denseRelu (V c main_v24) (V c main_arg0) (V c main_arg2) (V c main_arg3) (V c main_v25) :=
  (dat0 (F := Ideal) V c).arrAt_eq_of_cover 5 _ (fun t _ => Region0.flushed0_eq V c t) Region0.cover0

end Cert.Sage

end
-- ==== Proof.KerRegion1.lean ====
/-
  From blocks to the array: the second dense layer.

  The region runs over a grid of 20 points, and point `t` stores one block of 5000 rows of the output.  The index
  maps send point `t` to block of rows `t` of the aggregated features, of the nodes' own features and of the output,
  always at column block zero, and to block (0, 0) of the two weight matrices and of the bias row, which are
  whole arrays.  So entry `(r, q)` of the block point `t` stores,

      (∑ₖ a(5000·t + r, k)·Wl(k, q) + ∑ₖ h(5000·t + r, k)·Wr(k, q)) + b(0, q), clipped below at zero,

  is entry `(5000·t + r, q)` of the layer's array of the arrays the region finds; and the twenty blocks of rows
  tile the 100000 rows (row `p` lies in block `p / 5000`), so after the last point the output array IS the layer's array.
-/
import proofs.«178328_j53463752901314_1_alg».proof.Proof.KerPayload
import proofs.«178328_j53463752901314_1_alg».proof.Proof.Gen.KernelIdeal.Frame
import Idealize.ShloMosaic.Lib.Pipeline.Value

set_option maxRecDepth 16384

noncomputable section

namespace Cert.Sage

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

namespace Region1

theorem hz1 : (![0, 0] : Fin 2 → Nat) = fun _ => 0 := funext fun a => by fin_cases a <;> rfl

/-- The printed index maps over the grid: the two row windows move with the output's block of rows, every window
    sits at column block zero, and the weights and the bias stay at block (0, 0). -/
theorem idx_facts1 : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 ∧ win1_5.index t (1 : Fin 2) = 0 :=
  (by decide +kernel : ∀ t : Fin grid1.N, _)

/-- Every block of rows is some point's. -/
theorem idx_onto1 : ∀ q0 : Fin 20, ∃ t : Fin cfg1.N, win1_5.index t = ![q0.val, 0] :=
  (by decide +kernel : ∀ q0 : Fin 20, ∃ t : Fin grid1.N, win1_5.index t = ![q0.val, 0])

theorem row1_lt (t : Fin cfg1.N) (r : Fin 5000) : win1_5.index t (0 : Fin 2) * 5000 + r.val < 100000 := by
  have h := (idx_facts1 t).2.2.2.2.2.2.2.2.2.2.1
  have hr := r.isLt
  omega

/-- The row of the array that row `r` of point `t`'s block is. -/
abbrev row1 (t : Fin cfg1.N) (r : Fin 5000) : Fin 100000 := ⟨win1_5.index t (0 : Fin 2) * 5000 + r.val, row1_lt t r⟩

/-- Entry `(r, q)` of the output's block at point `t` sits in the array at row `row1 t r`, column `q`. -/
theorem emb1_5 (t : Fin cfg1.N) (r : Fin 5000) (q : Fin 128) :
    ((cfg1.win 5).blk t).view.emb (ix2 r q) = ix2 (row1 t r) q := by
  have e1 := (idx_facts1 t).2.2.2.2.2.2.2.2.2.2.2
  funext a; apply Fin.ext
  match a with
  | ⟨0, _⟩ => show win1_5.index t (0 : Fin 2) * 5000 + 1 * r.val = win1_5.index t (0 : Fin 2) * 5000 + r.val; omega
  | ⟨1, _⟩ => show win1_5.index t (1 : Fin 2) * 128 + 1 * q.val = q.val; rw [e1]; omega

/-- The aggregated features' block at point `t` is the array's rows of that point. -/
theorem blk1_0 (c : Dev nD) (t : Fin cfg1.N) (r : Fin 5000) (k : Fin 128) :
    (iblk1 (F := Ideal) V c 0 t : Vec Ideal S5000x128 .f32) (ix2 r k) = V c main_v39 (ix2 (row1 t r) k) := by
  obtain ⟨e0, e1, -⟩ := idx_facts1 t
  unfold iblk1
  rw [View.read_apply]
  show V c main_v39 _ = V c main_v39 _
  congr 1
  funext a; apply Fin.ext
  match a with
  | ⟨0, _⟩ => show win1_0.index t (0 : Fin 2) * 5000 + 1 * r.val = win1_5.index t (0 : Fin 2) * 5000 + r.val; rw [e0]; omega
  | ⟨1, _⟩ => show win1_0.index t (1 : Fin 2) * 128 + 1 * k.val = k.val; rw [e1]; omega

/-- The nodes' own features' block at point `t` is the array's rows of that point. -/
theorem blk1_1 (c : Dev nD) (t : Fin cfg1.N) (r : Fin 5000) (k : Fin 128) :
    (iblk1 (F := Ideal) V c 1 t : Vec Ideal S5000x128 .f32) (ix2 r k) = V c main_v26 (ix2 (row1 t r) k) := by
  obtain ⟨-, -, e0, e1, -⟩ := idx_facts1 t
  unfold iblk1
  rw [View.read_apply]
  show V c main_v26 _ = V c main_v26 _
  congr 1
  funext a; apply Fin.ext
  match a with
  | ⟨0, _⟩ => show win1_1.index t (0 : Fin 2) * 5000 + 1 * r.val = win1_5.index t (0 : Fin 2) * 5000 + r.val; rw [e0]; omega
  | ⟨1, _⟩ => show win1_1.index t (1 : Fin 2) * 128 + 1 * k.val = k.val; rw [e1]; omega

/-- The first weight matrix's block is the matrix at every point. -/
theorem blk1_2 (c : Dev nD) (t : Fin cfg1.N) (k : Fin 128) (q : Fin 128) :
    (iblk1 (F := Ideal) V c 2 t : Vec Ideal S128x128 .f32) (ix2 k q) = V c main_arg5 (ix2 k q) := by
  obtain ⟨-, -, -, -, e0, e1, -⟩ := idx_facts1 t
  unfold iblk1
  rw [View.read_apply]
  show V c main_arg5 _ = V c main_arg5 _
  congr 1
  funext a; apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The second weight matrix's block is the matrix at every point. -/
theorem blk1_3 (c : Dev nD) (t : Fin cfg1.N) (k : Fin 128) (q : Fin 128) :
    (iblk1 (F := Ideal) V c 3 t : Vec Ideal S128x128 .f32) (ix2 k q) = V c main_arg6 (ix2 k q) := by
  obtain ⟨-, -, -, -, -, -, e0, e1, -⟩ := idx_facts1 t
  unfold iblk1
  rw [View.read_apply]
  show V c main_arg6 _ = V c main_arg6 _
  congr 1
  funext a; apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias row's block is the row at every point. -/
theorem blk1_4 (c : Dev nD) (t : Fin cfg1.N) (z : Fin 1) (q : Fin 128) :
    (iblk1 (F := Ideal) V c 4 t : Vec Ideal S1x128 .f32) (ix2 z q) = V c main_v40 (ix2 z q) := by
  obtain ⟨-, -, -, -, -, -, -, -, e0, e1, -⟩ := idx_facts1 t
  unfold iblk1
  rw [View.read_apply]
  show V c main_v40 _ = V c main_v40 _
  congr 1
  funext a; apply Fin.ext
  match a with
  | ⟨0, _⟩ => show win1_4.index t (0 : Fin 2) * 1 + 1 * z.val = z.val; rw [e0]; omega
  | ⟨1, _⟩ => show win1_4.index t (1 : Fin 2) * 128 + 1 * q.val = q.val; rw [e1]; omega

/-- What point `t` writes back is its block of the layer's array of the arrays the region finds. -/
theorem flushed1_eq (c : Dev nD) (t : Fin cfg1.N) :
    (dat1 (F := Ideal) V c).flushed 5 t = ((cfg1.win 5).blk t).view.read (Elt Ideal)
      (denseRelu (V c main_v39) (V c main_v26) (V c main_arg5) (V c main_arg6) (V c main_v40)) := by
  show (cfg1.win 5).cut (grid1.coords t) ((dat1 (F := Ideal) V c).after 5 t) = _
  rw [after1_5]
  unfold out1_5
  rw [View.canon_unit_zero hz1]
  simp only [View.ld_unit_zero (S := S5000x128) hz1, View.ld_unit_zero (S := S128x128) hz1, View.ld_unit_zero (S := S1x128) hz1]
  funext j
  obtain ⟨r, q, rfl⟩ : ∃ (r : Fin 5000) (q : Fin 128), j = ix2 r q := ⟨j 0, j 1, @eq_ix2 5000 128 j⟩
  show k1_pay1 (F := Ideal) (iblk1 V c 0 t) (iblk1 V c 1 t) (iblk1 V c 2 t) (iblk1 V c 3 t) (iblk1 V c 4 t) (ix2 r q)
    = denseRelu (V c main_v39) (V c main_v26) (V c main_arg5) (V c main_arg6) (V c main_v40) (((cfg1.win 5).blk t).view.emb (ix2 r q))
  rw [pay1_at, emb1_5, denseRelu_ix2]
  unfold denseAt
  simp only [blk1_0 V c t, blk1_1 V c t, blk1_2 V c t, blk1_3 V c t, blk1_4 V c t]

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- Every index of the array is in some point's block: row `p` is in the block of rows `p / 5000`. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

end Region1

/-- After the region the output array is the layer's array of the arrays the region found. -/
theorem final1 (c : Dev nD) :
    (Cert.KernelIdeal.Gen.dat1 (F := Ideal) V c).arrAt 5 cfg1.N
      = Cert.Sage.denseRelu (V c main_v39) (V c main_v26) (V c main_arg5) (V c main_arg6) (V c main_v40) :=
  (dat1 (F := Ideal) V c).arrAt_eq_of_cover 5 _ (fun t _ => Region1.flushed1_eq V c t) Region1.cover1

end Cert.Sage

end
-- ==== Proof.KerRegion2.lean ====
/-
  From blocks to the array: the last dense layer.

  The region runs over a grid of 20 points, and point `t` stores one block of 5000 rows of the output.  The index
  maps send point `t` to block of rows `t` of the aggregated features, of the nodes' own features and of the output,
  always at column block zero, and to block (0, 0) of the two weight matrices and of the bias row, which are
  whole arrays.  So entry `(r, q)` of the block point `t` stores,

      (∑ₖ a(5000·t + r, k)·Wl(k, q) + ∑ₖ h(5000·t + r, k)·Wr(k, q)) + b(0, q)

  is entry `(5000·t + r, q)` of the layer's array of the arrays the region finds; and the twenty blocks of rows
  tile the 100000 rows (row `p` lies in block `p / 5000`), so after the last point the output array IS the layer's array.
-/
import proofs.«178328_j53463752901314_1_alg».proof.Proof.KerPayload
import proofs.«178328_j53463752901314_1_alg».proof.Proof.Gen.KernelIdeal.Frame
import Idealize.ShloMosaic.Lib.Pipeline.Value

set_option maxRecDepth 16384

noncomputable section

namespace Cert.Sage

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

namespace Region2

theorem hz2 : (![0, 0] : Fin 2 → Nat) = fun _ => 0 := funext fun a => by fin_cases a <;> rfl

/-- The printed index maps over the grid: the two row windows move with the output's block of rows, every window
    sits at column block zero, and the weights and the bias stay at block (0, 0). -/
theorem idx_facts2 : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 19 ∧ win2_5.index t (1 : Fin 2) = 0 :=
  (by decide +kernel : ∀ t : Fin grid2.N, _)

/-- Every block of rows is some point's. -/
theorem idx_onto2 : ∀ q0 : Fin 20, ∃ t : Fin cfg2.N, win2_5.index t = ![q0.val, 0] :=
  (by decide +kernel : ∀ q0 : Fin 20, ∃ t : Fin grid2.N, win2_5.index t = ![q0.val, 0])

theorem row2_lt (t : Fin cfg2.N) (r : Fin 5000) : win2_5.index t (0 : Fin 2) * 5000 + r.val < 100000 := by
  have h := (idx_facts2 t).2.2.2.2.2.2.2.2.2.2.1
  have hr := r.isLt
  omega

/-- The row of the array that row `r` of point `t`'s block is. -/
abbrev row2 (t : Fin cfg2.N) (r : Fin 5000) : Fin 100000 := ⟨win2_5.index t (0 : Fin 2) * 5000 + r.val, row2_lt t r⟩

/-- Entry `(r, q)` of the output's block at point `t` sits in the array at row `row2 t r`, column `q`. -/
theorem emb2_5 (t : Fin cfg2.N) (r : Fin 5000) (q : Fin 64) :
    ((cfg2.win 5).blk t).view.emb (ix2 r q) = ix2 (row2 t r) q := by
  have e1 := (idx_facts2 t).2.2.2.2.2.2.2.2.2.2.2
  funext a; apply Fin.ext
  match a with
  | ⟨0, _⟩ => show win2_5.index t (0 : Fin 2) * 5000 + 1 * r.val = win2_5.index t (0 : Fin 2) * 5000 + r.val; omega
  | ⟨1, _⟩ => show win2_5.index t (1 : Fin 2) * 64 + 1 * q.val = q.val; rw [e1]; omega

/-- The aggregated features' block at point `t` is the array's rows of that point. -/
theorem blk2_0 (c : Dev nD) (t : Fin cfg2.N) (r : Fin 5000) (k : Fin 128) :
    (iblk2 (F := Ideal) V c 0 t : Vec Ideal S5000x128 .f32) (ix2 r k) = V c main_v54 (ix2 (row2 t r) k) := by
  obtain ⟨e0, e1, -⟩ := idx_facts2 t
  unfold iblk2
  rw [View.read_apply]
  show V c main_v54 _ = V c main_v54 _
  congr 1
  funext a; apply Fin.ext
  match a with
  | ⟨0, _⟩ => show win2_0.index t (0 : Fin 2) * 5000 + 1 * r.val = win2_5.index t (0 : Fin 2) * 5000 + r.val; rw [e0]; omega
  | ⟨1, _⟩ => show win2_0.index t (1 : Fin 2) * 128 + 1 * k.val = k.val; rw [e1]; omega

/-- The nodes' own features' block at point `t` is the array's rows of that point. -/
theorem blk2_1 (c : Dev nD) (t : Fin cfg2.N) (r : Fin 5000) (k : Fin 128) :
    (iblk2 (F := Ideal) V c 1 t : Vec Ideal S5000x128 .f32) (ix2 r k) = V c main_v41 (ix2 (row2 t r) k) := by
  obtain ⟨-, -, e0, e1, -⟩ := idx_facts2 t
  unfold iblk2
  rw [View.read_apply]
  show V c main_v41 _ = V c main_v41 _
  congr 1
  funext a; apply Fin.ext
  match a with
  | ⟨0, _⟩ => show win2_1.index t (0 : Fin 2) * 5000 + 1 * r.val = win2_5.index t (0 : Fin 2) * 5000 + r.val; rw [e0]; omega
  | ⟨1, _⟩ => show win2_1.index t (1 : Fin 2) * 128 + 1 * k.val = k.val; rw [e1]; omega

/-- The first weight matrix's block is the matrix at every point. -/
theorem blk2_2 (c : Dev nD) (t : Fin cfg2.N) (k : Fin 128) (q : Fin 64) :
    (iblk2 (F := Ideal) V c 2 t : Vec Ideal S128x64 .f32) (ix2 k q) = V c main_arg8 (ix2 k q) := by
  obtain ⟨-, -, -, -, e0, e1, -⟩ := idx_facts2 t
  unfold iblk2
  rw [View.read_apply]
  show V c main_arg8 _ = V c main_arg8 _
  congr 1
  funext a; apply Fin.ext
  match a with
  | ⟨0, _⟩ => show win2_2.index t (0 : Fin 2) * 128 + 1 * k.val = k.val; rw [e0]; omega
  | ⟨1, _⟩ => show win2_2.index t (1 : Fin 2) * 64 + 1 * q.val = q.val; rw [e1]; omega

/-- The second weight matrix's block is the matrix at every point. -/
theorem blk2_3 (c : Dev nD) (t : Fin cfg2.N) (k : Fin 128) (q : Fin 64) :
    (iblk2 (F := Ideal) V c 3 t : Vec Ideal S128x64 .f32) (ix2 k q) = V c main_arg9 (ix2 k q) := by
  obtain ⟨-, -, -, -, -, -, e0, e1, -⟩ := idx_facts2 t
  unfold iblk2
  rw [View.read_apply]
  show V c main_arg9 _ = V c main_arg9 _
  congr 1
  funext a; apply Fin.ext
  match a with
  | ⟨0, _⟩ => show win2_3.index t (0 : Fin 2) * 128 + 1 * k.val = k.val; rw [e0]; omega
  | ⟨1, _⟩ => show win2_3.index t (1 : Fin 2) * 64 + 1 * q.val = q.val; rw [e1]; omega

/-- The bias row's block is the row at every point. -/
theorem blk2_4 (c : Dev nD) (t : Fin cfg2.N) (z : Fin 1) (q : Fin 64) :
    (iblk2 (F := Ideal) V c 4 t : Vec Ideal S1x64 .f32) (ix2 z q) = V c main_v55 (ix2 z q) := by
  obtain ⟨-, -, -, -, -, -, -, -, e0, e1, -⟩ := idx_facts2 t
  unfold iblk2
  rw [View.read_apply]
  show V c main_v55 _ = V c main_v55 _
  congr 1
  funext a; apply Fin.ext
  match a with
  | ⟨0, _⟩ => show win2_4.index t (0 : Fin 2) * 1 + 1 * z.val = z.val; rw [e0]; omega
  | ⟨1, _⟩ => show win2_4.index t (1 : Fin 2) * 64 + 1 * q.val = q.val; rw [e1]; omega

/-- What point `t` writes back is its block of the layer's array of the arrays the region finds. -/
theorem flushed2_eq (c : Dev nD) (t : Fin cfg2.N) :
    (dat2 (F := Ideal) V c).flushed 5 t = ((cfg2.win 5).blk t).view.read (Elt Ideal)
      (denseOut (V c main_v54) (V c main_v41) (V c main_arg8) (V c main_arg9) (V c main_v55)) := by
  show (cfg2.win 5).cut (grid2.coords t) ((dat2 (F := Ideal) V c).after 5 t) = _
  rw [after2_5]
  unfold out2_5
  rw [View.canon_unit_zero hz2]
  simp only [View.ld_unit_zero (S := S5000x128) hz2, View.ld_unit_zero (S := S128x64) hz2, View.ld_unit_zero (S := S1x64) hz2]
  funext j
  obtain ⟨r, q, rfl⟩ : ∃ (r : Fin 5000) (q : Fin 64), j = ix2 r q := ⟨j 0, j 1, @eq_ix2 5000 64 j⟩
  show k2_pay1 (F := Ideal) (iblk2 V c 0 t) (iblk2 V c 1 t) (iblk2 V c 2 t) (iblk2 V c 3 t) (iblk2 V c 4 t) (ix2 r q)
    = denseOut (V c main_v54) (V c main_v41) (V c main_arg8) (V c main_arg9) (V c main_v55) (((cfg2.win 5).blk t).view.emb (ix2 r q))
  rw [pay2_at, emb2_5, denseOut_ix2]
  unfold denseOutAt
  simp only [blk2_0 V c t, blk2_1 V c t, blk2_2 V c t, blk2_3 V c t, blk2_4 V c t]

/-- An index of the array is in point `t`'s block iff each coordinate is in the block's range on its axis. -/
theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v56).slice (win2_5.rect t)).set ↔ _
  rw [View.set_slice_whole, Rect.mem_set_unit]
  exact Iff.rfl

/-- Every index of the array is in some point's block: row `p` is in the block of rows `p / 5000`. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

end Region2

/-- After the region the output array is the layer's array of the arrays the region found. -/
theorem final2 (c : Dev nD) :
    (Cert.KernelIdeal.Gen.dat2 (F := Ideal) V c).arrAt 5 cfg2.N
      = Cert.Sage.denseOut (V c main_v54) (V c main_v41) (V c main_arg8) (V c main_arg9) (V c main_v55) :=
  (dat2 (F := Ideal) V c).arrAt_eq_of_cover 5 _ (fun t _ => Region2.flushed2_eq V c t) Region2.cover2

end Cert.Sage

end
-- ==== Proof.KerHost.lean ====
/-
  The three-region program's buffers, boundary by boundary, as functions of the launch memory.

  Before each dense layer a stretch of host operations prepares its operands: the mean of the neighbours' rows (the
  scatter-added gathered rows times the reciprocal of the clipped in-degree) and the bias as a one-row matrix; the
  edge list's two rows and the reciprocal degree are computed once, in the first stretch, and read again by the later
  ones.  A region overwrites only its own output array, and a stretch only the buffers it computes, so every other
  buffer is carried through.  Read in order, the result buffer after the last region is the three stacked layers
  `Cert.Sage.net` of the eleven arguments.
-/
import proofs.«178328_j53463752901314_1_alg».proof.Proof.Gen.KernelIdeal.Frame
import proofs.«178328_j53463752901314_1_alg».proof.Proof.SageOps
import proofs.«178328_j53463752901314_1_alg».proof.Proof.KerRegion0
import proofs.«178328_j53463752901314_1_alg».proof.Proof.KerRegion1
import proofs.«178328_j53463752901314_1_alg».proof.Proof.KerRegion2
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg)

/-- The first layer's mean operand. -/
theorem s0_mean (c : Dev nD) : W1 m ρ c (Proc.devRef .tc main_v24) = Cert.Sage.meanMul (m ((c : Thread nD τ).loc main_arg0)) (m ((c : Thread nD τ).loc main_arg1)) := by
  show StableHlo.after hostOps0 (W0 m ρ c) (Proc.devRef .tc main_v24) = _
  after_results_simp <;> rfl
/-- The first layer's bias as a one-row matrix. -/
theorem s0_bias (c : Dev nD) : W1 m ρ c (Proc.devRef .tc main_v25) = shapeCast _ (m ((c : Thread nD τ).loc main_arg4)) shapeCasts_S128_S1x128 := by
  show StableHlo.after hostOps0 (W0 m ρ c) (Proc.devRef .tc main_v25) = _
  after_results_simp <;> rfl
/-- The edge list's row of sources. -/
theorem s0_src (c : Dev nD) : W1 m ρ c (Proc.devRef .tc main_v1) = Cert.Sage.srcRow (m ((c : Thread nD τ).loc main_arg1)) := by
  show StableHlo.after hostOps0 (W0 m ρ c) (Proc.devRef .tc main_v1) = _
  after_results_simp <;> rfl
/-- The edge list's row of targets. -/
theorem s0_dst (c : Dev nD) : W1 m ρ c (Proc.devRef .tc main_v3) = shapeCast _ (extractStridedSlice S1x1600000 ![1, 0] (m ((c : Thread nD τ).loc main_arg1)) slices_S2x1600000_S1x1600000_1_0) shapeCasts_S1x1600000_S1600000 := by
  show StableHlo.after hostOps0 (W0 m ρ c) (Proc.devRef .tc main_v3) = _
  after_results_simp <;> rfl
/-- The reciprocal of the clipped in-degree. -/
theorem s0_inv (c : Dev nD) : W1 m ρ c (Proc.devRef .tc main_v11) = Host.divf (F := Ideal) Cert.Sage.onesN (Cert.Sage.degClip (m ((c : Thread nD τ).loc main_arg1))) := by
  show StableHlo.after hostOps0 (W0 m ρ c) (Proc.devRef .tc main_v11) = _
  after_results_simp <;> rfl
/-- Argument 0 is carried through the first stretch. -/
theorem s0_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl
/-- Argument 2 is carried through the first stretch. -/
theorem s0_arg2 (c : Dev nD) : W1 m ρ c (Proc.devRef .tc main_arg2) = (m ((c : Thread nD τ).loc main_arg2)) := by
  show StableHlo.after hostOps0 (W0 m ρ c) (Proc.devRef .tc main_arg2) = _
  after_results_simp <;> rfl
/-- Argument 3 is carried through the first stretch. -/
theorem s0_arg3 (c : Dev nD) : W1 m ρ c (Proc.devRef .tc main_arg3) = (m ((c : Thread nD τ).loc main_arg3)) := by
  show StableHlo.after hostOps0 (W0 m ρ c) (Proc.devRef .tc main_arg3) = _
  after_results_simp <;> rfl
/-- Argument 5 is carried through the first stretch. -/
theorem s0_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl
/-- Argument 6 is carried through the first stretch. -/
theorem s0_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl
/-- Argument 7 is carried through the first stretch. -/
theorem s0_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl
/-- Argument 8 is carried through the first stretch. -/
theorem s0_arg8 (c : Dev nD) : W1 m ρ c (Proc.devRef .tc main_arg8) = (m ((c : Thread nD τ).loc main_arg8)) := by
  show StableHlo.after hostOps0 (W0 m ρ c) (Proc.devRef .tc main_arg8) = _
  after_results_simp <;> rfl
/-- Argument 9 is carried through the first stretch. -/
theorem s0_arg9 (c : Dev nD) : W1 m ρ c (Proc.devRef .tc main_arg9) = (m ((c : Thread nD τ).loc main_arg9)) := by
  show StableHlo.after hostOps0 (W0 m ρ c) (Proc.devRef .tc main_arg9) = _
  after_results_simp <;> rfl
/-- Argument 10 is carried through the first stretch. -/
theorem s0_arg10 (c : Dev nD) : W1 m ρ c (Proc.devRef .tc main_arg10) = (m ((c : Thread nD τ).loc main_arg10)) := by
  show StableHlo.after hostOps0 (W0 m ρ c) (Proc.devRef .tc main_arg10) = _
  after_results_simp <;> rfl
/-- After the first region its output array holds the first layer. -/
theorem r0_out (c : Dev nD) : W2 m ρ c (Proc.devRef .tc main_v26) = (Cert.Sage.layerRelu (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 5).trans ?_
  rw [Cert.Sage.final0 (V1 m ρ) c]
  show Cert.Sage.denseRelu (W1 m ρ c (Proc.devRef .tc main_v24)) (W1 m ρ c (Proc.devRef .tc main_arg0)) (W1 m ρ c (Proc.devRef .tc main_arg2)) (W1 m ρ c (Proc.devRef .tc main_arg3)) (W1 m ρ c (Proc.devRef .tc main_v25)) = _
  rw [s0_mean, s0_arg0, s0_arg2, s0_arg3, s0_bias]
  rfl
/-- The first region leaves main_v1 as it found it. -/
theorem r0_v1 (c : Dev nD) : W2 m ρ c (Proc.devRef .tc main_v1) = W1 m ρ c (Proc.devRef .tc main_v1) :=
  W2_of_ne m ρ c main_v1 (by decide)
/-- The first region leaves main_v3 as it found it. -/
theorem r0_v3 (c : Dev nD) : W2 m ρ c (Proc.devRef .tc main_v3) = W1 m ρ c (Proc.devRef .tc main_v3) :=
  W2_of_ne m ρ c main_v3 (by decide)
/-- The first region leaves main_v11 as it found it. -/
theorem r0_v11 (c : Dev nD) : W2 m ρ c (Proc.devRef .tc main_v11) = W1 m ρ c (Proc.devRef .tc main_v11) :=
  W2_of_ne m ρ c main_v11 (by decide)
/-- The first region leaves main_arg5 as it found it. -/
theorem r0_arg5 (c : Dev nD) : W2 m ρ c (Proc.devRef .tc main_arg5) = W1 m ρ c (Proc.devRef .tc main_arg5) :=
  W2_of_ne m ρ c main_arg5 (by decide)
/-- The first region leaves main_arg6 as it found it. -/
theorem r0_arg6 (c : Dev nD) : W2 m ρ c (Proc.devRef .tc main_arg6) = W1 m ρ c (Proc.devRef .tc main_arg6) :=
  W2_of_ne m ρ c main_arg6 (by decide)
/-- The first region leaves main_arg7 as it found it. -/
theorem r0_arg7 (c : Dev nD) : W2 m ρ c (Proc.devRef .tc main_arg7) = W1 m ρ c (Proc.devRef .tc main_arg7) :=
  W2_of_ne m ρ c main_arg7 (by decide)
/-- The first region leaves main_arg8 as it found it. -/
theorem r0_arg8 (c : Dev nD) : W2 m ρ c (Proc.devRef .tc main_arg8) = W1 m ρ c (Proc.devRef .tc main_arg8) :=
  W2_of_ne m ρ c main_arg8 (by decide)
/-- The first region leaves main_arg9 as it found it. -/
theorem r0_arg9 (c : Dev nD) : W2 m ρ c (Proc.devRef .tc main_arg9) = W1 m ρ c (Proc.devRef .tc main_arg9) :=
  W2_of_ne m ρ c main_arg9 (by decide)
/-- The first region leaves main_arg10 as it found it. -/
theorem r0_arg10 (c : Dev nD) : W2 m ρ c (Proc.devRef .tc main_arg10) = W1 m ρ c (Proc.devRef .tc main_arg10) :=
  W2_of_ne m ρ c main_arg10 (by decide)
/-- The second layer's mean operand, over what the first region left. -/
theorem s1_mean (c : Dev nD) : W3 m ρ c (Proc.devRef .tc main_v39) = Cert.Sage.meanMul (Cert.Sage.layerRelu (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  have e : W3 m ρ c (Proc.devRef .tc main_v39)
      = mulf (Host.scatterAdd scatter_S100000x128_S1600000x1_S1600000x128_1_0_0_1
          (broadcastInDim S100000x128 ![] bcast_S_S100000x128 (constant S_ .f32 0x00000000#32))
          (broadcastInDim S1600000x1 ![0] bcast_S1600000_S1600000x1_0 (W2 m ρ c (Proc.devRef .tc main_v3)))
          (Host.gather gather_S100000x128_S1600000x1_S1600000x128_1_0_n_n_0_1_1128 (W2 m ρ c (Proc.devRef .tc main_v26))
            (broadcastInDim S1600000x1 ![0] bcast_S1600000_S1600000x1_0
              (select (cmpi .slt (W2 m ρ c (Proc.devRef .tc main_v1)) (broadcastInDim S1600000 ![] bcast_S_S1600000 (constantI S_ 32 0#32)))
                (addi (W2 m ρ c (Proc.devRef .tc main_v1)) (broadcastInDim S1600000 ![] bcast_S_S1600000 (constantI S_ 32 100000#32)))
                (W2 m ρ c (Proc.devRef .tc main_v1))))))
        (Cert.Sage.alongRows (W2 m ρ c (Proc.devRef .tc main_v11))) := by
    show StableHlo.after hostOps1 (W2 m ρ c) (Proc.devRef .tc main_v39) = _
    after_results_simp <;> rfl
  rw [e, r0_out, r0_v1, r0_v3, r0_v11, s0_src, s0_dst, s0_inv]
  rfl

/-! ### What the carried buffers hold at each later boundary -/
theorem w2_v1 (c : Dev nD) : W2 m ρ c (Proc.devRef .tc main_v1) = (Cert.Sage.srcRow (m ((c : Thread nD τ).loc main_arg1))) := (r0_v1 m ρ c).trans (s0_src m ρ c)
theorem w2_v3 (c : Dev nD) : W2 m ρ c (Proc.devRef .tc main_v3) = (shapeCast _ (extractStridedSlice S1x1600000 ![1, 0] (m ((c : Thread nD τ).loc main_arg1)) slices_S2x1600000_S1x1600000_1_0) shapeCasts_S1x1600000_S1600000) := (r0_v3 m ρ c).trans (s0_dst m ρ c)
theorem w2_v11 (c : Dev nD) : W2 m ρ c (Proc.devRef .tc main_v11) = (Host.divf (F := Ideal) Cert.Sage.onesN (Cert.Sage.degClip (m ((c : Thread nD τ).loc main_arg1)))) := (r0_v11 m ρ c).trans (s0_inv m ρ c)
theorem w2_arg5 (c : Dev nD) : W2 m ρ c (Proc.devRef .tc main_arg5) = (m ((c : Thread nD τ).loc main_arg5)) := (r0_arg5 m ρ c).trans (s0_arg5 m ρ c)
theorem w2_arg6 (c : Dev nD) : W2 m ρ c (Proc.devRef .tc main_arg6) = (m ((c : Thread nD τ).loc main_arg6)) := (r0_arg6 m ρ c).trans (s0_arg6 m ρ c)
theorem w2_arg7 (c : Dev nD) : W2 m ρ c (Proc.devRef .tc main_arg7) = (m ((c : Thread nD τ).loc main_arg7)) := (r0_arg7 m ρ c).trans (s0_arg7 m ρ c)
theorem w2_arg8 (c : Dev nD) : W2 m ρ c (Proc.devRef .tc main_arg8) = (m ((c : Thread nD τ).loc main_arg8)) := (r0_arg8 m ρ c).trans (s0_arg8 m ρ c)
theorem w2_arg9 (c : Dev nD) : W2 m ρ c (Proc.devRef .tc main_arg9) = (m ((c : Thread nD τ).loc main_arg9)) := (r0_arg9 m ρ c).trans (s0_arg9 m ρ c)
theorem w2_arg10 (c : Dev nD) : W2 m ρ c (Proc.devRef .tc main_arg10) = (m ((c : Thread nD τ).loc main_arg10)) := (r0_arg10 m ρ c).trans (s0_arg10 m ρ c)
theorem c1_v1 (c : Dev nD) : W3 m ρ c (Proc.devRef .tc main_v1) = W2 m ρ c (Proc.devRef .tc main_v1) := by
  show StableHlo.after hostOps1 (W2 m ρ c) (Proc.devRef .tc main_v1) = _
  after_results_simp <;> rfl
theorem w3_v1 (c : Dev nD) : W3 m ρ c (Proc.devRef .tc main_v1) = (Cert.Sage.srcRow (m ((c : Thread nD τ).loc main_arg1))) := (c1_v1 m ρ c).trans (w2_v1 m ρ c)
theorem c1_v3 (c : Dev nD) : W3 m ρ c (Proc.devRef .tc main_v3) = W2 m ρ c (Proc.devRef .tc main_v3) := by
  show StableHlo.after hostOps1 (W2 m ρ c) (Proc.devRef .tc main_v3) = _
  after_results_simp <;> rfl
theorem w3_v3 (c : Dev nD) : W3 m ρ c (Proc.devRef .tc main_v3) = (shapeCast _ (extractStridedSlice S1x1600000 ![1, 0] (m ((c : Thread nD τ).loc main_arg1)) slices_S2x1600000_S1x1600000_1_0) shapeCasts_S1x1600000_S1600000) := (c1_v3 m ρ c).trans (w2_v3 m ρ c)
theorem c1_v11 (c : Dev nD) : W3 m ρ c (Proc.devRef .tc main_v11) = W2 m ρ c (Proc.devRef .tc main_v11) := by
  show StableHlo.after hostOps1 (W2 m ρ c) (Proc.devRef .tc main_v11) = _
  after_results_simp <;> rfl
theorem w3_v11 (c : Dev nD) : W3 m ρ c (Proc.devRef .tc main_v11) = (Host.divf (F := Ideal) Cert.Sage.onesN (Cert.Sage.degClip (m ((c : Thread nD τ).loc main_arg1)))) := (c1_v11 m ρ c).trans (w2_v11 m ρ c)
theorem c1_arg5 (c : Dev nD) : W3 m ρ c (Proc.devRef .tc main_arg5) = W2 m ρ c (Proc.devRef .tc main_arg5) := by
  show StableHlo.after hostOps1 (W2 m ρ c) (Proc.devRef .tc main_arg5) = _
  after_results_simp <;> rfl
theorem w3_arg5 (c : Dev nD) : W3 m ρ c (Proc.devRef .tc main_arg5) = (m ((c : Thread nD τ).loc main_arg5)) := (c1_arg5 m ρ c).trans (w2_arg5 m ρ c)
theorem c1_arg6 (c : Dev nD) : W3 m ρ c (Proc.devRef .tc main_arg6) = W2 m ρ c (Proc.devRef .tc main_arg6) := by
  show StableHlo.after hostOps1 (W2 m ρ c) (Proc.devRef .tc main_arg6) = _
  after_results_simp <;> rfl
theorem w3_arg6 (c : Dev nD) : W3 m ρ c (Proc.devRef .tc main_arg6) = (m ((c : Thread nD τ).loc main_arg6)) := (c1_arg6 m ρ c).trans (w2_arg6 m ρ c)
theorem c1_arg7 (c : Dev nD) : W3 m ρ c (Proc.devRef .tc main_arg7) = W2 m ρ c (Proc.devRef .tc main_arg7) := by
  show StableHlo.after hostOps1 (W2 m ρ c) (Proc.devRef .tc main_arg7) = _
  after_results_simp <;> rfl
theorem w3_arg7 (c : Dev nD) : W3 m ρ c (Proc.devRef .tc main_arg7) = (m ((c : Thread nD τ).loc main_arg7)) := (c1_arg7 m ρ c).trans (w2_arg7 m ρ c)
theorem c1_arg8 (c : Dev nD) : W3 m ρ c (Proc.devRef .tc main_arg8) = W2 m ρ c (Proc.devRef .tc main_arg8) := by
  show StableHlo.after hostOps1 (W2 m ρ c) (Proc.devRef .tc main_arg8) = _
  after_results_simp <;> rfl
theorem w3_arg8 (c : Dev nD) : W3 m ρ c (Proc.devRef .tc main_arg8) = (m ((c : Thread nD τ).loc main_arg8)) := (c1_arg8 m ρ c).trans (w2_arg8 m ρ c)
theorem c1_arg9 (c : Dev nD) : W3 m ρ c (Proc.devRef .tc main_arg9) = W2 m ρ c (Proc.devRef .tc main_arg9) := by
  show StableHlo.after hostOps1 (W2 m ρ c) (Proc.devRef .tc main_arg9) = _
  after_results_simp <;> rfl
theorem w3_arg9 (c : Dev nD) : W3 m ρ c (Proc.devRef .tc main_arg9) = (m ((c : Thread nD τ).loc main_arg9)) := (c1_arg9 m ρ c).trans (w2_arg9 m ρ c)
theorem c1_arg10 (c : Dev nD) : W3 m ρ c (Proc.devRef .tc main_arg10) = W2 m ρ c (Proc.devRef .tc main_arg10) := by
  show StableHlo.after hostOps1 (W2 m ρ c) (Proc.devRef .tc main_arg10) = _
  after_results_simp <;> rfl
theorem w3_arg10 (c : Dev nD) : W3 m ρ c (Proc.devRef .tc main_arg10) = (m ((c : Thread nD τ).loc main_arg10)) := (c1_arg10 m ρ c).trans (w2_arg10 m ρ c)
theorem c1_v26 (c : Dev nD) : W3 m ρ c (Proc.devRef .tc main_v26) = W2 m ρ c (Proc.devRef .tc main_v26) := by
  show StableHlo.after hostOps1 (W2 m ρ c) (Proc.devRef .tc main_v26) = _
  after_results_simp <;> rfl
theorem w3_v26 (c : Dev nD) : W3 m ρ c (Proc.devRef .tc main_v26) = (Cert.Sage.layerRelu (m ((c : Thread nD τ).loc main_arg0)) (m ((c : Thread nD τ).loc main_arg1)) (m ((c : Thread nD τ).loc main_arg2)) (m ((c : Thread nD τ).loc main_arg3)) (m ((c : Thread nD τ).loc main_arg4))) := (c1_v26 m ρ c).trans (r0_out m ρ c)
/-- The second layer's bias as a one-row matrix. -/
theorem s1_bias (c : Dev nD) : W3 m ρ c (Proc.devRef .tc main_v40) = shapeCast _ (m ((c : Thread nD τ).loc main_arg7)) shapeCasts_S128_S1x128 := by
  have e : W3 m ρ c (Proc.devRef .tc main_v40) = shapeCast _ (W2 m ρ c (Proc.devRef .tc main_arg7)) shapeCasts_S128_S1x128 := by
    show StableHlo.after hostOps1 (W2 m ρ c) (Proc.devRef .tc main_v40) = _
    after_results_simp <;> rfl
  rw [e, w2_arg7]
/-- After the second region its output array holds the second layer. -/
theorem r1_out (c : Dev nD) : W4 m ρ c (Proc.devRef .tc main_v41) = (Cert.Sage.layerRelu (Cert.Sage.layerRelu (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) := by
  refine (W4_arr m ρ c 5).trans ?_
  rw [Cert.Sage.final1 (V3 m ρ) c]
  show Cert.Sage.denseRelu (W3 m ρ c (Proc.devRef .tc main_v39)) (W3 m ρ c (Proc.devRef .tc main_v26)) (W3 m ρ c (Proc.devRef .tc main_arg5)) (W3 m ρ c (Proc.devRef .tc main_arg6)) (W3 m ρ c (Proc.devRef .tc main_v40)) = _
  rw [s1_mean, w3_v26, w3_arg5, w3_arg6, s1_bias]
  rfl
theorem w4_v1 (c : Dev nD) : W4 m ρ c (Proc.devRef .tc main_v1) = (Cert.Sage.srcRow (m ((c : Thread nD τ).loc main_arg1))) := (W4_of_ne m ρ c main_v1 (by decide)).trans (w3_v1 m ρ c)
theorem w4_v3 (c : Dev nD) : W4 m ρ c (Proc.devRef .tc main_v3) = (shapeCast _ (extractStridedSlice S1x1600000 ![1, 0] (m ((c : Thread nD τ).loc main_arg1)) slices_S2x1600000_S1x1600000_1_0) shapeCasts_S1x1600000_S1600000) := (W4_of_ne m ρ c main_v3 (by decide)).trans (w3_v3 m ρ c)
theorem w4_v11 (c : Dev nD) : W4 m ρ c (Proc.devRef .tc main_v11) = (Host.divf (F := Ideal) Cert.Sage.onesN (Cert.Sage.degClip (m ((c : Thread nD τ).loc main_arg1)))) := (W4_of_ne m ρ c main_v11 (by decide)).trans (w3_v11 m ρ c)
theorem w4_arg8 (c : Dev nD) : W4 m ρ c (Proc.devRef .tc main_arg8) = (m ((c : Thread nD τ).loc main_arg8)) := (W4_of_ne m ρ c main_arg8 (by decide)).trans (w3_arg8 m ρ c)
theorem w4_arg9 (c : Dev nD) : W4 m ρ c (Proc.devRef .tc main_arg9) = (m ((c : Thread nD τ).loc main_arg9)) := (W4_of_ne m ρ c main_arg9 (by decide)).trans (w3_arg9 m ρ c)
theorem w4_arg10 (c : Dev nD) : W4 m ρ c (Proc.devRef .tc main_arg10) = (m ((c : Thread nD τ).loc main_arg10)) := (W4_of_ne m ρ c main_arg10 (by decide)).trans (w3_arg10 m ρ c)
/-- The last layer's mean operand, over what the second region left. -/
theorem s2_mean (c : Dev nD) : W5 m ρ c (Proc.devRef .tc main_v54) = Cert.Sage.meanMul (Cert.Sage.layerRelu (Cert.Sage.layerRelu (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg1)) := by
  have e : W5 m ρ c (Proc.devRef .tc main_v54)
      = mulf (Host.scatterAdd scatter_S100000x128_S1600000x1_S1600000x128_1_0_0_1
          (broadcastInDim S100000x128 ![] bcast_S_S100000x128 (constant S_ .f32 0x00000000#32))
          (broadcastInDim S1600000x1 ![0] bcast_S1600000_S1600000x1_0 (W4 m ρ c (Proc.devRef .tc main_v3)))
          (Host.gather gather_S100000x128_S1600000x1_S1600000x128_1_0_n_n_0_1_1128 (W4 m ρ c (Proc.devRef .tc main_v41))
            (broadcastInDim S1600000x1 ![0] bcast_S1600000_S1600000x1_0
              (select (cmpi .slt (W4 m ρ c (Proc.devRef .tc main_v1)) (broadcastInDim S1600000 ![] bcast_S_S1600000 (constantI S_ 32 0#32)))
                (addi (W4 m ρ c (Proc.devRef .tc main_v1)) (broadcastInDim S1600000 ![] bcast_S_S1600000 (constantI S_ 32 100000#32)))
                (W4 m ρ c (Proc.devRef .tc main_v1))))))
        (Cert.Sage.alongRows (W4 m ρ c (Proc.devRef .tc main_v11))) := by
    show StableHlo.after hostOps2 (W4 m ρ c) (Proc.devRef .tc main_v54) = _
    after_results_simp <;> rfl
  rw [e, r1_out, w4_v1, w4_v3, w4_v11]
  rfl
theorem c2_arg8 (c : Dev nD) : W5 m ρ c (Proc.devRef .tc main_arg8) = W4 m ρ c (Proc.devRef .tc main_arg8) := by
  show StableHlo.after hostOps2 (W4 m ρ c) (Proc.devRef .tc main_arg8) = _
  after_results_simp <;> rfl
theorem w5_arg8 (c : Dev nD) : W5 m ρ c (Proc.devRef .tc main_arg8) = (m ((c : Thread nD τ).loc main_arg8)) := (c2_arg8 m ρ c).trans (w4_arg8 m ρ c)
theorem c2_arg9 (c : Dev nD) : W5 m ρ c (Proc.devRef .tc main_arg9) = W4 m ρ c (Proc.devRef .tc main_arg9) := by
  show StableHlo.after hostOps2 (W4 m ρ c) (Proc.devRef .tc main_arg9) = _
  after_results_simp <;> rfl
theorem w5_arg9 (c : Dev nD) : W5 m ρ c (Proc.devRef .tc main_arg9) = (m ((c : Thread nD τ).loc main_arg9)) := (c2_arg9 m ρ c).trans (w4_arg9 m ρ c)
theorem c2_arg10 (c : Dev nD) : W5 m ρ c (Proc.devRef .tc main_arg10) = W4 m ρ c (Proc.devRef .tc main_arg10) := by
  show StableHlo.after hostOps2 (W4 m ρ c) (Proc.devRef .tc main_arg10) = _
  after_results_simp <;> rfl
theorem w5_arg10 (c : Dev nD) : W5 m ρ c (Proc.devRef .tc main_arg10) = (m ((c : Thread nD τ).loc main_arg10)) := (c2_arg10 m ρ c).trans (w4_arg10 m ρ c)
theorem c2_v41 (c : Dev nD) : W5 m ρ c (Proc.devRef .tc main_v41) = W4 m ρ c (Proc.devRef .tc main_v41) := by
  show StableHlo.after hostOps2 (W4 m ρ c) (Proc.devRef .tc main_v41) = _
  after_results_simp <;> rfl
theorem w5_v41 (c : Dev nD) : W5 m ρ c (Proc.devRef .tc main_v41) = (Cert.Sage.layerRelu (Cert.Sage.layerRelu (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) := (c2_v41 m ρ c).trans (r1_out m ρ c)
/-- The last layer's bias as a one-row matrix. -/
theorem s2_bias (c : Dev nD) : W5 m ρ c (Proc.devRef .tc main_v55) = shapeCast _ (m ((c : Thread nD τ).loc main_arg10)) shapeCasts_S64_S1x64 := by
  have e : W5 m ρ c (Proc.devRef .tc main_v55) = shapeCast _ (W4 m ρ c (Proc.devRef .tc main_arg10)) shapeCasts_S64_S1x64 := by
    show StableHlo.after hostOps2 (W4 m ρ c) (Proc.devRef .tc main_v55) = _
    after_results_simp <;> rfl
  rw [e, w4_arg10]
/-- After the last region the result array holds the three stacked layers of the arguments. -/
theorem result (c : Dev nD) : W6 m ρ c (Proc.devRef .tc main_v56)
    = Cert.Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ?_
  rw [Cert.Sage.final2 (V5 m ρ) c]
  show Cert.Sage.denseOut (W5 m ρ c (Proc.devRef .tc main_v54)) (W5 m ρ c (Proc.devRef .tc main_v41)) (W5 m ρ c (Proc.devRef .tc main_arg8)) (W5 m ρ c (Proc.devRef .tc main_arg9)) (W5 m ρ c (Proc.devRef .tc main_v55)) = _
  rw [s2_mean, w5_v41, w5_arg8, w5_arg9, s2_bias]
  rfl

end Cert.KernelIdeal.HostValue

end
-- ==== Proof.RefValue.lean ====
/-
  The reference program's result is the three stacked layers of the specification.

  The reference computes, per layer,

      relu?( (mean · Wl + h · Wr) + bias laid along the rows ),

  where the mean over incoming edges is the scatter-added sum of gathered source rows divided by the in-degree clipped
  below at one, and the rectifier is a maximum with the zero array.  Its composed term splits, by unfolding alone, into
  three such layers written over the shared whole-array pieces (sum, clipped degree, mean by division).  Each layer is
  then compared entry by entry with the specification's layer: a matrix product read at node `p`, column `q` is the sum
  over the shared axis; the bias laid out as one row and repeated along the nodes, read at `(p, q)`, is its entry `q`,
  which is also what the one-row reshaping of the bias holds at `(0, q)`; the zero array is the real zero everywhere; and
  the mean by division is the mean by the reciprocal (`mean_eq`).
-/
import proofs.«178328_j53463752901314_1_alg».proof.Proof.SageOps
import proofs.«178328_j53463752901314_1_alg».proof.Proof.Gen.ReferenceIdeal.Read
import Idealize.ShloMosaic.Lib.ValueLayout

noncomputable section

namespace Cert.Sage.Ref

open Idealize.ShloMosaic Idealize.ShloMosaic.ValueIdx Idealize.ShloMosaic.TcCoe Idealize.SL.Sem
open Cert.ReferenceIdeal Cert.ReferenceIdeal.Gen

/-- One inner layer as the reference program spells it: the mean by division, two matrix products, the bias
    laid along the rows, and the rectifier as a maximum with the zero array. -/
def refLayerRelu (h : FVec Ideal S100000x128 .f32) (ei : IVec S2x1600000 32) (wl wr : FVec Ideal S128x128 .f32)
    (b : FVec Ideal S128 .f32) : FVec Ideal S100000x128 .f32 :=
  maximumf
    (addf
      (addf (Host.dotGeneral (F := Ideal) dot_S100000x128_S128x128_S100000x128_1_0_0_1_n_n none (Cert.Sage.meanDiv h ei) wl)
        (Host.dotGeneral (F := Ideal) dot_S100000x128_S128x128_S100000x128_1_0_0_1_n_n none h wr))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The last layer as the reference program spells it: 64 output columns, no rectifier. -/
def refLayerOut (h : FVec Ideal S100000x128 .f32) (ei : IVec S2x1600000 32) (wl wr : FVec Ideal S128x64 .f32)
    (b : FVec Ideal S64 .f32) : FVec Ideal S100000x64 .f32 :=
  addf
    (addf (Host.dotGeneral (F := Ideal) dot_S100000x128_S128x64_S100000x64_1_0_0_1_n_n none (Cert.Sage.meanDiv h ei) wl)
      (Host.dotGeneral (F := Ideal) dot_S100000x128_S128x64_S100000x64_1_0_0_1_n_n none h wr))
    (broadcastInDim S100000x64 ![0, 1] bcast_S1x64_S100000x64_0_1 (broadcastInDim S1x64 ![1] bcast_S64_S1x64_1 b))

/-! ### Reading the pieces of a layer at node `p`, column `q` -/

/-- A product with a 128-by-128 matrix, read at `(p, q)`: the sum over the shared axis. -/
theorem dot128_at (l : FVec Ideal S100000x128 .f32) (r : FVec Ideal S128x128 .f32) (p : Fin 100000) (q : Fin 128) :
    Host.dotGeneral (F := Ideal) dot_S100000x128_S128x128_S100000x128_1_0_0_1_n_n none l r (ix2 p q)
      = ∑ k : Fin 128, l (ix2 p k) * r (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact Cert.ReferenceIdeal.Read.lhs_main_v24_0 _ _
    | ⟨1, _⟩ => exact (Cert.ReferenceIdeal.Read.lhs_main_v24_1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (Cert.ReferenceIdeal.Read.rhs_main_v24_0 _ _).trans hk
    | ⟨1, _⟩ => exact Cert.ReferenceIdeal.Read.rhs_main_v24_1 _ _)
  rw [el, er]

/-- A product with a 128-by-64 matrix, read at `(p, q)`: the sum over the shared axis. -/
theorem dot64_at (l : FVec Ideal S100000x128 .f32) (r : FVec Ideal S128x64 .f32) (p : Fin 100000) (q : Fin 64) :
    Host.dotGeneral (F := Ideal) dot_S100000x128_S128x64_S100000x64_1_0_0_1_n_n none l r (ix2 p q)
      = ∑ k : Fin 128, l (ix2 p k) * r (ix2 k q) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx (ix2 p q) ((ValueIdx.contrEquiv1 dot_S100000x128_S128x64_S100000x64_1_0_0_1_n_n 128 rfl rfl).symm k) = ix2 p k := funext fun a => Fin.ext (by
    match a with
    | ⟨0, _⟩ => exact Cert.ReferenceIdeal.Read.lhs_main_v76_0 _ _
    | ⟨1, _⟩ => exact (Cert.ReferenceIdeal.Read.lhs_main_v76_1 _ _).trans hk)
  have er : dot_S100000x128_S128x64_S100000x64_1_0_0_1_n_n.rhsIdx (ix2 p q) ((ValueIdx.contrEquiv1 dot_S100000x128_S128x64_S100000x64_1_0_0_1_n_n 128 rfl rfl).symm k) = ix2 k q := funext fun a => Fin.ext (by
    match a with
    | ⟨0, _⟩ => exact (Cert.ReferenceIdeal.Read.rhs_main_v76_0 _ _).trans hk
    | ⟨1, _⟩ => exact Cert.ReferenceIdeal.Read.rhs_main_v76_1 _ _)
  rw [el, er]

/-- The 128-entry bias laid out as one row and then along every node, read at `(p, q)`, is its entry `q`. -/
theorem bias128_at (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  generalize hy : broadcastInDim S1x128 ![1] bcast_S128_S1x128_1 b = y
  have e1 : broadcastInDim S100000x128 ![0, 1] bcast_S1x128_S100000x128_0_1 y (ix2 p q) = y (ix2 0 q) :=
    broadcastInDim_apply _ bcast_S1x128_S100000x128_0_1 y (ix2 p q) (ix2 0 q) (fun a => match a with
      | ⟨0, _⟩ => by show 0 = if (1 : Nat) = 1 then 0 else p.val; rw [if_pos rfl]
      | ⟨1, _⟩ => by show q.val = if (128 : Nat) = 1 then 0 else q.val; rw [if_neg (by decide)])
  rw [e1, ← hy]
  exact broadcastInDim_apply _ bcast_S128_S1x128_1 b (ix2 0 q) (ix1 q) (fun a => match a with
      | ⟨0, _⟩ => by show q.val = if (128 : Nat) = 1 then 0 else q.val; rw [if_neg (by decide)])

/-- The 64-entry bias laid out as one row and then along every node, read at `(p, q)`, is its entry `q`. -/
theorem bias64_at (b : FVec Ideal S64 .f32) (p : Fin 100000) (q : Fin 64) :
    broadcastInDim S100000x64 ![0, 1] bcast_S1x64_S100000x64_0_1 (broadcastInDim S1x64 ![1] bcast_S64_S1x64_1 b) (ix2 p q)
      = b (ix1 q) := by
  generalize hy : broadcastInDim S1x64 ![1] bcast_S64_S1x64_1 b = y
  have e1 : broadcastInDim S100000x64 ![0, 1] bcast_S1x64_S100000x64_0_1 y (ix2 p q) = y (ix2 0 q) :=
    broadcastInDim_apply _ bcast_S1x64_S100000x64_0_1 y (ix2 p q) (ix2 0 q) (fun a => match a with
      | ⟨0, _⟩ => by show 0 = if (1 : Nat) = 1 then 0 else p.val; rw [if_pos rfl]
      | ⟨1, _⟩ => by show q.val = if (64 : Nat) = 1 then 0 else q.val; rw [if_neg (by decide)])
  rw [e1, ← hy]
  exact broadcastInDim_apply _ bcast_S64_S1x64_1 b (ix2 0 q) (ix1 q) (fun a => match a with
      | ⟨0, _⟩ => by show q.val = if (64 : Nat) = 1 then 0 else q.val; rw [if_neg (by decide)])

/-- The zero array the rectifier compares with, read anywhere, is the real zero. -/
theorem zero128_at (p : Fin 100000) (q : Fin 128) :
    broadcastInDim S100000x128 ![] bcast_S_S100000x128 (constant (F := Ideal) S_ .f32 0x00000000#32) (ix2 p q) = 0 := by
  have e1 : broadcastInDim S100000x128 ![] bcast_S_S100000x128 (constant (F := Ideal) S_ .f32 0x00000000#32) (ix2 p q)
      = constant (F := Ideal) S_ .f32 0x00000000#32 ix0 :=
    broadcastInDim_apply _ bcast_S_S100000x128 (constant (F := Ideal) S_ .f32 0x00000000#32) (ix2 p q) ix0 (fun a => a.elim0)
  rw [e1]
  exact Ideal.ofBits_zero_f32

/-! ### A layer of the reference is the layer of the specification -/

/-- The reference's inner layer read at an index: clip at zero of the two products plus the bias. -/
theorem relu_at (d1 d2 bb z : FVec Ideal S100000x128 .f32) (i : S100000x128.Idx) :
    maximumf (addf (addf d1 d2) bb) z i = max ((d1 i + d2 i) + bb i) (z i) := rfl

/-- The reference's last layer read at an index: the two products plus the bias. -/
theorem out_at (d1 d2 bb : FVec Ideal S100000x64 .f32) (i : S100000x64.Idx) :
    addf (addf d1 d2) bb i = (d1 i + d2 i) + bb i := rfl

/-- The specification's inner layer at `(p, q)`, its bias row's entry named. -/
theorem denseRelu_at (a h : FVec Ideal S100000x128 .f32) (wl wr : FVec Ideal S128x128 .f32) (brow : FVec Ideal S1x128 .f32)
    (p : Fin 100000) (q : Fin 128) (x : EReal) (hb : brow (ix2 0 q) = x) :
    Cert.Sage.denseRelu a h wl wr brow (ix2 p q)
      = max (((∑ k : Fin 128, a (ix2 p k) * wl (ix2 k q)) + ∑ k : Fin 128, h (ix2 p k) * wr (ix2 k q)) + x) 0 := by
  rw [Cert.Sage.denseRelu_ix2 a h wl wr brow p q]
  unfold Cert.Sage.denseAt
  rw [hb]

/-- The specification's last layer at `(p, q)`, its bias row's entry named. -/
theorem denseOut_at (a h : FVec Ideal S100000x128 .f32) (wl wr : FVec Ideal S128x64 .f32) (brow : FVec Ideal S1x64 .f32)
    (p : Fin 100000) (q : Fin 64) (x : EReal) (hb : brow (ix2 0 q) = x) :
    Cert.Sage.denseOut a h wl wr brow (ix2 p q)
      = ((∑ k : Fin 128, a (ix2 p k) * wl (ix2 k q)) + ∑ k : Fin 128, h (ix2 p k) * wr (ix2 k q)) + x := by
  rw [Cert.Sage.denseOut_ix2 a h wl wr brow p q]
  unfold Cert.Sage.denseOutAt
  rw [hb]

theorem refLayerRelu_eq (h : FVec Ideal S100000x128 .f32) (ei : IVec S2x1600000 32) (wl wr : FVec Ideal S128x128 .f32)
    (b : FVec Ideal S128 .f32) : refLayerRelu h ei wl wr b = Cert.Sage.layerRelu h ei wl wr b := by
  unfold refLayerRelu Cert.Sage.layerRelu
  rw [← Cert.Sage.mean_eq h ei]
  generalize Cert.Sage.meanMul h ei = a
  funext i
  obtain ⟨p, q, rfl⟩ : ∃ (p : Fin 100000) (q : Fin 128), i = ix2 p q := ⟨i 0, i 1, eq_ix2 i⟩
  have key := relu_at (Host.dotGeneral (F := Ideal) dot_S100000x128_S128x128_S100000x128_1_0_0_1_n_n none a wl)
    (Host.dotGeneral (F := Ideal) dot_S100000x128_S128x128_S100000x128_1_0_0_1_n_n none h wr)
    (broadcastInDim S100000x128 ![0, 1] bcast_S1x128_S100000x128_0_1 (broadcastInDim S1x128 ![1] bcast_S128_S1x128_1 b))
    (broadcastInDim S100000x128 ![] bcast_S_S100000x128 (constant (F := Ideal) S_ .f32 0x00000000#32)) (ix2 p q)
  rw [dot128_at a wl p q, dot128_at h wr p q, bias128_at b p q, zero128_at p q] at key
  exact key.trans (denseRelu_at a h wl wr _ p q (b (ix1 q))
    (shapeCast_a_1a_apply b Cert.KernelIdeal.Facts₀.shapeCasts_S128_S1x128 (0 : Fin 1) q)).symm

theorem refLayerOut_eq (h : FVec Ideal S100000x128 .f32) (ei : IVec S2x1600000 32) (wl wr : FVec Ideal S128x64 .f32)
    (b : FVec Ideal S64 .f32) : refLayerOut h ei wl wr b = Cert.Sage.layerOut h ei wl wr b := by
  unfold refLayerOut Cert.Sage.layerOut
  rw [← Cert.Sage.mean_eq h ei]
  generalize Cert.Sage.meanMul h ei = a
  funext i
  obtain ⟨p, q, rfl⟩ : ∃ (p : Fin 100000) (q : Fin 64), i = ix2 p q := ⟨i 0, i 1, eq_ix2 i⟩
  have key := out_at (Host.dotGeneral (F := Ideal) dot_S100000x128_S128x64_S100000x64_1_0_0_1_n_n none a wl)
    (Host.dotGeneral (F := Ideal) dot_S100000x128_S128x64_S100000x64_1_0_0_1_n_n none h wr)
    (broadcastInDim S100000x64 ![0, 1] bcast_S1x64_S100000x64_0_1 (broadcastInDim S1x64 ![1] bcast_S64_S1x64_1 b)) (ix2 p q)
  rw [dot64_at a wl p q, dot64_at h wr p q, bias64_at b p q] at key
  exact key.trans (denseOut_at a h wl wr _ p q (b (ix1 q))
    (shapeCast_a_1a_apply b Cert.KernelIdeal.Facts₀.shapeCasts_S64_S1x64 (0 : Fin 1) q)).symm

/-! ### The whole program -/

set_option maxRecDepth 8192 in
/-- The reference's composed term is, by unfolding alone, its three layers stacked. -/
theorem res_eq (m : (ℓ : Loc nD τ sig) → Buf (Elt Ideal) ℓ) (c : Dev nD) :
    Cert.ReferenceIdeal.Value.res_main_v80 (F := Ideal) m c
      = refLayerOut (refLayerRelu (refLayerRelu (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
          (m ((c.tc : Thread nD τ).loc main_arg1)) (m ((c.tc : Thread nD τ).loc main_arg5)) (m ((c.tc : Thread nD τ).loc main_arg6))
          (m ((c.tc : Thread nD τ).loc main_arg7)))
        (m ((c.tc : Thread nD τ).loc main_arg1)) (m ((c.tc : Thread nD τ).loc main_arg8)) (m ((c.tc : Thread nD τ).loc main_arg9))
        (m ((c.tc : Thread nD τ).loc main_arg10)) := by
  unfold Cert.ReferenceIdeal.Value.res_main_v80
  rfl

/-- Three reference layers stacked are the specification's network. -/
theorem net_eq (x0 : FVec Ideal S100000x128 .f32) (x1 : IVec S2x1600000 32) (x2 x3 : FVec Ideal S128x128 .f32)
    (x4 : FVec Ideal S128 .f32) (x5 x6 : FVec Ideal S128x128 .f32) (x7 : FVec Ideal S128 .f32)
    (x8 x9 : FVec Ideal S128x64 .f32) (x10 : FVec Ideal S64 .f32) :
    refLayerOut (refLayerRelu (refLayerRelu x0 x1 x2 x3 x4) x1 x5 x6 x7) x1 x8 x9 x10
      = Cert.Sage.net x0 x1 x2 x3 x4 x5 x6 x7 x8 x9 x10 := by
  rw [refLayerRelu_eq x0 x1 x2 x3 x4, refLayerRelu_eq _ x1 x5 x6 x7, refLayerOut_eq _ x1 x8 x9 x10]
  rfl

/-- The reference program's result, for any launch contents, is the specification's network of its eleven arguments. -/
theorem ref_value (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v80 (F := Ideal) m c
      = Cert.Sage.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) :=
  (res_eq m c).trans (net_eq _ _ _ _ _ _ _ _ _ _ _)

end Cert.Sage.Ref

end
-- ==== Proof.lean ====
/-
  The certificate of a three-layer mean-aggregating graph convolution: the Pallas program (gather, scatter-add and
  the reciprocal-degree scaling on the host, each dense layer a grid of 20 row blocks on the TensorCore) against the
  plain jnp program, on the extended reals.

  Both programs compute, layer by layer,  relu?( mean·Wl + h·Wr + b )  with the same gather and scatter-add.  They
  differ in three places, none of which changes the value: the kernel multiplies the neighbour sum by the reciprocal
  `1 / max(deg, 1)` where the reference divides by `max(deg, 1)` — equal on every extended real, since the clipped
  degree is never zero; the kernel narrows its matrix operands to bf16 before multiplying — the identity on extended
  reals; and the kernel computes each layer block by block — each block is the restriction of one whole-array function,
  and the blocks cover the array.  No finiteness of the inputs is needed, so the precondition is never opened.

  The frames of the two kernel programs are the generated ones; the reference's frame is its generated run with the
  result dropped; nothing was rewritten by the idealization, so there is nothing to preserve.
-/
import proofs.«178328_j53463752901314_1_alg».proof.Defs
import proofs.«178328_j53463752901314_1_alg».proof.Proof.Gen.Kernel
import proofs.«178328_j53463752901314_1_alg».proof.Proof.Gen.Kernel.Skeleton
import proofs.«178328_j53463752901314_1_alg».proof.Proof.Gen.Kernel.Launch
import proofs.«178328_j53463752901314_1_alg».proof.Proof.Gen.Kernel.Points
import proofs.«178328_j53463752901314_1_alg».proof.Proof.Gen.Kernel.Frame
import proofs.«178328_j53463752901314_1_alg».proof.Proof.Gen.KernelIdeal
import proofs.«178328_j53463752901314_1_alg».proof.Proof.Gen.KernelIdeal.Skeleton
import proofs.«178328_j53463752901314_1_alg».proof.Proof.Gen.KernelIdeal.Launch
import proofs.«178328_j53463752901314_1_alg».proof.Proof.Gen.KernelIdeal.Points
import proofs.«178328_j53463752901314_1_alg».proof.Proof.Gen.KernelIdeal.Frame
import proofs.«178328_j53463752901314_1_alg».proof.Proof.Gen.ReferenceIdeal
import proofs.«178328_j53463752901314_1_alg».proof.Proof.Gen.ReferenceIdeal.Run
import proofs.«178328_j53463752901314_1_alg».proof.Proof.Gen.ReferenceIdeal.Read
import proofs.«178328_j53463752901314_1_alg».proof.Proof.Gen.Pre_finite_inputs
import proofs.«178328_j53463752901314_1_alg».proof.Proof.KerRun
import proofs.«178328_j53463752901314_1_alg».proof.Proof.KerHost
import proofs.«178328_j53463752901314_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the three stacked layers of the (agreeing) arguments. -/
theorem algebraic : Cert.algebraic_KernelIdeal_ReferenceIdeal := by
  intro m ρ m' ρ' _ hagree
  refine ⟨fun c => Cert.Sage.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.HostValue.result m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.Sage.Ref.ref_value m' c, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
